-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x1x4096 : Shape := ⟨3, ![4, 1, 4096]⟩
abbrev S1x1x4096 : Shape := ⟨3, ![1, 1, 4096]⟩
abbrev S14336x4096 : Shape := ⟨2, ![14336, 4096]⟩
abbrev S4096x4096 : Shape := ⟨2, ![4096, 4096]⟩
abbrev S4096x14336 : Shape := ⟨2, ![4096, 14336]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x1x4096 : S_.BroadcastsInDim S4x1x4096 (![] : Fin 0 → Fin S4x1x4096.rank)
  reducesTo_S4x1x4096_S_d0_1_2 : S4x1x4096.ReducesTo [0, 1, 2] S_
  bcast_S_S1x1x4096 : S_.BroadcastsInDim S1x1x4096 (![] : Fin 0 → Fin S1x1x4096.rank)
  reducesTo_S1x1x4096_S_d0_1_2 : S1x1x4096.ReducesTo [0, 1, 2] S_
  bcast_S_S14336x4096 : S_.BroadcastsInDim S14336x4096 (![] : Fin 0 → Fin S14336x4096.rank)
  reducesTo_S14336x4096_S_d0_1 : S14336x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_arg4 : FVec F S14336x4096 .f32) (main_arg5 : FVec F S4096x4096 .f32) (main_arg6 : FVec F S4096x14336 .f32) (main_v13 : IVec S_ 1) (main_v16 : IVec S1x1x4096 1) : IVec S_ 1 :=
  let main_c_5 : IVec S_ 1 := constantI S_ 1 1#1
  let main_v17 : IVec S_ 1 := (fun x v => Host.reduce IntOp.andi x v reducesTo_S1x1x4096_S_d0_1_2 h_S_) main_v16 main_c_5
  let main_v18 : IVec S_ 1 := andi main_v13 main_v17
  let main_v19 : FVec F S14336x4096 .f32 := Host.absf main_arg4
  let main_cst_6 : FVec F S_ .f32 := constant S_ .f32 0x7F800000#32
  let main_v20 : FVec F S14336x4096 .f32 := broadcastInDim S14336x4096 ![] bcast_S_S14336x4096 main_cst_6
  let main_v21 : IVec S14336x4096 1 := cmpf .olt main_v19 main_v20
  let main_c_7 : IVec S_ 1 := constantI S_ 1 1#1
  let main_v22 : IVec S_ 1 := (fun x v => Host.reduce IntOp.andi x v reducesTo_S14336x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x14336 .f32 := Host.absf main_arg6
  let main_cst_10 : FVec F S_ .f32 := constant S_ .f32 0x7F800000#32
  let main_v30 : FVec F S4096x14336 .f32 := broadcastInDim S4096x14336 ![] bcast_S_S4096x14336 main_cst_10
  let main_v31 : IVec S4096x14336 1 := cmpf .olt main_v29 main_v30
  let main_c_11 : IVec S_ 1 := constantI S_ 1 1#1
  let main_v32 : IVec S_ 1 := (fun x v => Host.reduce IntOp.andi x v reducesTo_S4096x14336_S_d0_1 h_S_) main_v31 main_c_11
  let main_v33 : IVec S_ 1 := andi main_v28 main_v32
  main_v33

def fn {F : FTy → Type} [FloatOps F] (main_arg0 : FVec F S4x2048x4096 .f32) (main_arg1 : FVec F S4x1x4096 .f32) (main_arg2 : FVec F S1x1x4096 .f32) (main_arg3 : FVec F S1x1x4096 .f32) (main_arg4 : FVec F S14336x4096 .f32) (main_arg5 : FVec F S4096x4096 .f32) (main_arg6 : FVec F S4096x14336 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x1x4096 .f32 := Host.absf main_arg1
  let main_cst_0 : FVec F S_ .f32 := constant S_ .f32 0x7F800000#32
  let main_v5 : FVec F S4x1x4096 .f32 := broadcastInDim S4x1x4096 ![] bcast_S_S4x1x4096 main_cst_0
  let main_v6 : IVec S4x1x4096 1 := cmpf .olt main_v4 main_v5
  let main_c_1 : IVec S_ 1 := constantI S_ 1 1#1
  let main_v7 : IVec S_ 1 := (fun x v => Host.reduce IntOp.andi x v reducesTo_S4x1x4096_S_d0_1_2 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S1x1x4096 .f32 := Host.absf main_arg3
  let main_cst_4 : FVec F S_ .f32 := constant S_ .f32 0x7F800000#32
  let main_v15 : FVec F S1x1x4096 .f32 := broadcastInDim S1x1x4096 ![] bcast_S_S1x1x4096 main_cst_4
  let main_v16 : IVec S1x1x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4x1x4096 : Shape := ⟨3, ![4, 1, 4096]⟩
abbrev S1x1x4096 : Shape := ⟨3, ![1, 1, 4096]⟩
abbrev S14336x4096 : Shape := ⟨2, ![14336, 4096]⟩
abbrev S4096x4096 : Shape := ⟨2, ![4096, 4096]⟩
abbrev S4096x14336 : Shape := ⟨2, ![4096, 14336]⟩
abbrev S4x2047x4096 : Shape := ⟨3, ![4, 2047, 4096]⟩
abbrev S1x4096 : Shape := ⟨2, ![1, 4096]⟩
abbrev S8192x4096 : Shape := ⟨2, ![8192, 4096]⟩
abbrev S_ : Shape := ⟨0, ![]⟩
abbrev S256x4096 : Shape := ⟨2, ![256, 4096]⟩
abbrev S512x4096 : Shape := ⟨2, ![512, 4096]⟩
abbrev S4096x512 : Shape := ⟨2, ![4096, 512]⟩
abbrev S256x512 : Shape := ⟨2, ![256, 512]⟩
abbrev S1024x4096 : Shape := ⟨2, ![1024, 4096]⟩
abbrev S256x1024 : Shape := ⟨2, ![256, 1024]⟩

abbrev nBuf : Space → Nat
  | .hbm => 38
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S1x1x4096, .f32⟩
  | .hbm, ⟨3, _⟩ => ⟨S1x1x4096, .f32⟩
  | .hbm, ⟨4, _⟩ => ⟨S14336x4096, .f32⟩
  | .hbm, ⟨5, _⟩ => ⟨S4096x4096, .f32⟩
  | .hbm, ⟨6, _⟩ => ⟨S4096x14336, .f32⟩
  | .hbm, ⟨7, _⟩ => ⟨S4x2047x4096, .f32⟩
  | .hbm, ⟨8, _⟩ => ⟨S4x2048x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | .hbm, ⟨31, _⟩ => ⟨S14336x4096, .bf16⟩
  | .hbm, ⟨32, _⟩ => ⟨S4096x14336, .bf16⟩
  | .hbm, ⟨33, _⟩ => ⟨S4096x4096, .bf16⟩
  | .hbm, ⟨34, _⟩ => ⟨S8192x4096, .f32⟩
  | .hbm, ⟨35, _⟩ => ⟨S8192x4096, .f32⟩
  | .hbm, ⟨36, _⟩ => ⟨S4x2048x4096, .f32⟩
  | .hbm, ⟨37, _⟩ => ⟨S4x1x4096, .f32⟩
  | .local _ .vmem, ⟨0, _⟩ => ⟨S256x4096, .bf16⟩
  | .local _ .vmem, ⟨1, _⟩ => ⟨S256x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1024x4096, .bf16⟩
  | .local _ .vmem, ⟨12, _⟩ => ⟨S1024x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 28], ![false, false]⟩

def k0_cond2 (i : grid0.Coords) : BitVec 1 :=
  let arg1 : BitVec 32 := BitVec.ofNat 32 (i 1).val
  let c27_i32 : BitVec 32 := 27#32
  let v20 : BitVec 1 := Scalar.cmpi .eq arg1 c27_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S4x2048x4096_S4x2047x4096_0_0_0 : S4x2048x4096.Slices ![0, 0, 0] S4x2047x4096
  concatenates_S4x1x4096_S4x2047x4096_S4x2048x4096_d1 : Shape.Concatenates [S4x1x4096, S4x2047x4096] S4x2048x4096 1
  shapeCasts_S1x1x4096_S1x4096 : S1x1x4096.ShapeCasts S1x4096
  shapeCasts_S4x2048x4096_S8192x4096 : S4x2048x4096.ShapeCasts S8192x4096
  bcast_S1x4096_S8192x4096_0_1 : S1x4096.BroadcastsInDim S8192x4096 (![0, 1] : Fin 2 → Fin S8192x4096.rank)
  bcast_S_S1x4096 : S_.BroadcastsInDim S1x4096 (![] : Fin 0 → Fin S1x4096.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S8192x4096_S4x2048x4096 : S8192x4096.ShapeCasts S4x2048x4096
  slices_S4x2048x4096_S4x1x4096_0_2047_0 : S4x2048x4096.Slices ![0, 2047, 0] S4x1x4096
  dot_S256x4096_S512x4096_S256x512_1_1_0_0_n_n_wf : DotDims.WF S256x4096 S512x4096 S256x512 [1] [1] [0] [0] [] []
  dot_S256x512_S4096x512_S256x4096_1_1_0_0_n_n_wf : DotDims.WF S256x512 S4096x512 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x14336.size a
  hwx0_2 : ∀ i : grid0.Coords, EltTy.bits .bf16 = 32 ∨ (Rect.block (s := S4096x14336) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x4096.size a
  hwx1_2 : ∀ i : grid1.Coords, EltTy.bits .f32 = 32 ∨ (Rect.block (s := S8192x4096) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x4096.size a
  hwx1_3 : ∀ i : grid1.Coords, EltTy.bits .f32 = 32 ∨ (Rect.block (s := S8192x4096) S256x1024.size (cc1_transform_3 i) (hinb1_3 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v13) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v21) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4x1x4096 : Shape := ⟨3, ![4, 1, 4096]⟩
abbrev S1x1x4096 : Shape := ⟨3, ![1, 1, 4096]⟩
abbrev S14336x4096 : Shape := ⟨2, ![14336, 4096]⟩
abbrev S4096x4096 : Shape := ⟨2, ![4096, 4096]⟩
abbrev S4096x14336 : Shape := ⟨2, ![4096, 14336]⟩
abbrev S4x2047x4096 : Shape := ⟨3, ![4, 2047, 4096]⟩
abbrev S_ : Shape := ⟨0, ![]⟩
abbrev S4x2048x14336 : Shape := ⟨3, ![4, 2048, 14336]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S1x1x4096, .f32⟩
  | .hbm, ⟨3, _⟩ => ⟨S1x1x4096, .f32⟩
  | .hbm, ⟨4, _⟩ => ⟨S14336x4096, .f32⟩
  | .hbm, ⟨5, _⟩ => ⟨S4096x4096, .f32⟩
  | .hbm, ⟨6, _⟩ => ⟨S4096x14336, .f32⟩
  | .hbm, ⟨7, _⟩ => ⟨S4x2047x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S_, .f32⟩
  | .hbm, ⟨12, _⟩ => ⟨S1x1x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S1x1x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x14336, .f32⟩
  | .hbm, ⟨26, _⟩ => ⟨S_, .f32⟩
  | .hbm, ⟨27, _⟩ => ⟨S4x2048x14336, .f32⟩
  | .hbm, ⟨28, _⟩ => ⟨S4x2048x14336, .f32⟩
  | .hbm, ⟨29, _⟩ => ⟨S4x2048x14336, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x1x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S4x2048x4096_S4x2047x4096_0_0_0 : S4x2048x4096.Slices ![0, 0, 0] S4x2047x4096
  concatenates_S4x1x4096_S4x2047x4096_S4x2048x4096_d1 : Shape.Concatenates [S4x1x4096, S4x2047x4096] S4x2048x4096 1
  bcast_S1x1x4096_S4x2048x4096_0_1_2 : S1x1x4096.BroadcastsInDim S4x2048x4096 (![0, 1, 2] : Fin 3 → Fin S4x2048x4096.rank)
  bcast_S_S1x1x4096 : S_.BroadcastsInDim S1x1x4096 (![] : Fin 0 → Fin S1x1x4096.rank)
  bcast_S_S4x2048x14336 : S_.BroadcastsInDim S4x2048x14336 (![] : Fin 0 → Fin S4x2048x14336.rank)
  bcast_S_S4x2048x4096 : S_.BroadcastsInDim S4x2048x4096 (![] : Fin 0 → Fin S4x2048x4096.rank)
  slices_S4x2048x4096_S4x1x4096_0_2047_0 : S4x2048x4096.Slices ![0, 2047, 0] S4x1x4096
  dot_S4x2048x4096_S14336x4096_S4x2048x14336_2_1_01_0_n_n_wf : DotDims.WF S4x2048x4096 S14336x4096 S4x2048x14336 [2] [1] [0, 1] [0] [] []
  dot_S4x2048x14336_S4096x14336_S4x2048x4096_2_1_01_0_n_n_wf : DotDims.WF S4x2048x14336 S4096x14336 S4x2048x4096 [2] [1] [0, 1] [0] [] []
  dot_S4x2048x4096_S4096x4096_S4x2048x4096_2_1_01_0_n_n_wf : DotDims.WF S4x2048x4096 S4096x4096 S4x2048x4096 [2] [1] [0, 1] [0] [] []

variable [Facts₀]

def dot_S4x2048x4096_S14336x4096_S4x2048x14336_2_1_01_0_n_n : DotDims S4x2048x4096 S14336x4096 S4x2048x14336 where
  lhsContracting := [2]
  rhsContracting := [1]
  lhsNonContracting := [0, 1]
  rhsNonContracting := [0]
  lhsBatch := []
  rhsBatch := []
  wf := dot_S4x2048x4096_S14336x4096_S4x2048x14336_2_1_01_0_n_n_wf
def dot_S4x2048x14336_S4096x14336_S4x2048x4096_2_1_01_0_n_n : DotDims S4x2048x14336 S4096x14336 S4x2048x4096 where
  lhsContracting := [2]
  rhsContracting := [1]
  lhsNonContracting := [0, 1]
  rhsNonContracting := [0]
  lhsBatch := []
  rhsBatch := []
  wf := dot_S4x2048x14336_S4096x14336_S4x2048x4096_2_1_01_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KB.R0Base.lean ====
import proofs.«124112_j77154792505751_2_alg».proof.Proof.Gen.Kernel.Launch
import proofs.«124112_j77154792505751_2_alg».proof.Proof.Gen.Kernel.Skeleton
import proofs.«124112_j77154792505751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the closed forms below are decided over the grid's 896 points, one theorem at a time
set_option Elab.async false

/-! # Region 0: the accumulating kernel on the grid 32 x 28

The second grid axis is the reduction axis. At reduction step 0 the body clears its accumulator, at every step it
adds one partial product into it, and at step 27 it copies the accumulator into the output block. Everything here
is stated at a parameter V: what the TensorCore's buffers hold when the region is entered. -/

section Blocks

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not a
    transfer brought it there: where none did, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not a
    transfer brought it there: where none did, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not a
    transfer brought it there: where none did, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditionals of the body, in closed form -/

/-- The first conditional's test: the reduction coordinate is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 28). -/
theorem hcond0_0 : ∀ t : Fin cfg0.N, cond0_0 (grid0.coords t) ↔ t.val % 28 = 0 :=
  (by decide +kernel : ∀ t : Fin grid0.N, cond0_0 (grid0.coords t) ↔ t.val % 28 = 0)

/-- The second conditional's test: the reduction coordinate is 27, the last. -/
abbrev cond0_1 (i : grid0.Coords) : Prop := k0_cond2 i = 1#1
/-- It holds exactly at the points ≡ 27 (mod 28). -/
theorem hcond0_1 : ∀ t : Fin cfg0.N, cond0_1 (grid0.coords t) ↔ t.val % 28 = 27 :=
  (by decide +kernel : ∀ t : Fin grid0.N, cond0_1 (grid0.coords t) ↔ t.val % 28 = 27)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last reduction step the output window is idle (the body stores nothing into it) -/
theorem idleAt0_3 : ∀ t : Fin cfg0.N, ¬cond0_1 (grid0.coords t) → cfg0.idle 3 (grid0.coords t) = true := by decide +kernel
/-- and its block is not written back. -/
theorem noFlush0_3 : ∀ t : Fin cfg0.N, ¬cond0_1 (grid0.coords t) → (cfg0.win 3).flush t = false := by decide +kernel
/-- At the last reduction step the output window is live. -/
theorem liveAt0_3 : ∀ t : Fin cfg0.N, cond0_1 (grid0.coords t) → cfg0.idle 3 (grid0.coords t) = false := by decide +kernel

/-! ## The memrefs the body is called with -/

/-- One staging buffer of the output window, through which its contents are stated (the choice does not matter). -/
abbrev VO0_3 : View sig .tc .vmem S256x4096 .f32 := (Memref.whole cc0_stg3_0 : Memref sig .tc .vmem S256x4096 .f32).view
/-- Each window's current staging memref at point t, and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S256x4096 .f32 := Memref.whole cc0_scratch0
/-- The accumulator as a view: what it holds is stated through it. -/
abbrev VS0 : View sig .tc .vmem S256x4096 .f32 := scM0.view

/-! ## The region invariant's fixed part -/

/-- The scoped buffers that are neither the accumulator nor a staging buffer of this region (the next region's
    eight staging buffers), each whole at some contents. The body never touches them: one opaque conjunct. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the accumulator at some contents, the fixed part, the generator register at
    some state. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

end Cert.Kernel.Fr

end
-- ==== Proof.KB.R0RunA.lean ====
import proofs.«124112_j77154792505751_2_alg».proof.Proof.KB.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a first reduction step (the first conditional taken, the second not) -/

set_option maxHeartbeats 1000000 in
/-- At a first reduction step that is not the last: on whole memrefs, the inputs at contents x0 x1 x2, the output
    window's buffer at contents xi3 (handed back untouched: the body stores nothing into it), the accumulator at
    anything, the body runs to a state with the inputs as they were and the accumulator overwritten by the pieces
    LS (last store first). The pieces are found by running the body; the output gets none. -/
noncomputable def kernelRun0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨[], ?_, fun xi3 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.R0RunB.lean ====
import proofs.«124112_j77154792505751_2_alg».proof.Proof.KB.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a middle reduction step (neither conditional taken) -/

set_option maxHeartbeats 1000000 in
/-- At a reduction step that is neither the first nor the last: as at a first step, but the accumulator is found
    at the contents xs the step before left and is read before it is overwritten. -/
noncomputable def kernelRun0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨[], ?_, fun xi3 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.R0RunC.lean ====
import proofs.«124112_j77154792505751_2_alg».proof.Proof.KB.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a last reduction step (the first conditional not taken, the second taken) -/

set_option maxHeartbeats 1000000 in
/-- At a last reduction step that is not the first: the accumulator is found at the contents xs the step before
    left, the output window's buffer at anything; the body leaves the accumulator overwritten by the pieces LS and
    the output buffer overwritten by the pieces L3 (the accumulator's new contents, copied). -/
noncomputable def kernelRun0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KB.R0Frame.lean ====
import proofs.«124112_j77154792505751_2_alg».proof.Proof.KB.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each step leaves, the proof data, the body obligation -/

/-- What a first step leaves in the output window's staging buffer: its pieces for that buffer read back over junk (it
    stores nothing there: a placeholder nothing consults, the window being idle and not written back). -/
def out0_A_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) : Vec F S256x4096 .f32 :=
  VO0_3.read (Elt F) (VO0_3.writes (Elt F) VO0_3.junk (kernelRun0_A c i arg2 harg2 arg3 harg3 arg4 harg4 arg5 harg5 arg6 harg6 hc0 hc1 x0 x1 x2).1)

/-- The pieces a first step writes into the accumulator tile it, so they cover it. -/
theorem scover0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) (y : S256x4096.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S256x4096.size (by sl_kernel_rfl) y

/-- What a first step leaves in the accumulator: its pieces read back over junk. -/
def sout0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) : Vec F S256x4096 .f32 :=
  VS0.read (Elt F) (VS0.writes (Elt F) VS0.junk (kernelRun0_A c i arg2 harg2 arg3 harg3 arg4 harg4 arg5 harg5 arg6 harg6 hc0 hc1 x0 x1 x2).2.1)

/-- What a middle step leaves in the output window's staging buffer: its pieces for that buffer read back over junk (it
    stores nothing there: a placeholder nothing consults, the window being idle and not written back). -/
def out0_B_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) : Vec F S256x4096 .f32 :=
  VO0_3.read (Elt F) (VO0_3.writes (Elt F) VO0_3.junk (kernelRun0_B c i arg2 harg2 arg3 harg3 arg4 harg4 arg5 harg5 arg6 harg6 hc0 hc1 x0 x1 x2 xs).1)

/-- The pieces a middle step writes into the accumulator tile it, so they cover it. -/
theorem scover0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) (y : S256x4096.Idx) :
    ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S256x4096.size (by sl_kernel_rfl) y

/-- What a middle step leaves in the accumulator: its pieces read back over junk. -/
def sout0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) : Vec F S256x4096 .f32 :=
  VS0.read (Elt F) (VS0.writes (Elt F) VS0.junk (kernelRun0_B c i arg2 harg2 arg3 harg3 arg4 harg4 arg5 harg5 arg6 harg6 hc0 hc1 x0 x1 x2 xs).2.1)

/-- The piece a last step writes into the output window's buffer tiles it, so it covers it. -/
theorem cover0_C_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) (y : S256x4096.Idx) :
    ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S256x4096.size (by sl_kernel_rfl) y

/-- What a last step leaves in the output window's staging buffer: its pieces for that buffer read back over junk. -/
def out0_C_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) : Vec F S256x4096 .f32 :=
  VO0_3.read (Elt F) (VO0_3.writes (Elt F) VO0_3.junk (kernelRun0_C c i arg2 harg2 arg3 harg3 arg4 harg4 arg5 harg5 arg6 harg6 hc0 hc1 x0 x1 x2 xs).1)

/-- The pieces a last step writes into the accumulator tile it, so they cover it. -/
theorem scover0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) (y : S256x4096.Idx) :
    ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S256x4096.size (by sl_kernel_rfl) y

/-- What a last step leaves in the accumulator: its pieces read back over junk. -/
def sout0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) : Vec F S256x4096 .f32 :=
  VS0.read (Elt F) (VS0.writes (Elt F) VS0.junk (kernelRun0_C c i arg2 harg2 arg3 harg3 arg4 harg4 arg5 harg5 arg6 harg6 hc0 hc1 x0 x1 x2 xs).2.1)

section Frame

variable (V : (c : Dev nD) → (b : Ref sig .tc) → Buf (Elt F) ((c : Thread nD τ).loc b))

/-! ## The accumulation, point by point -/

/-- A first step at point t: (the output buffer, the accumulator) after the body, from the three input blocks. -/
def stepA (c : Dev nD) (t : Fin cfg0.N) (h0 : t.val % 28 = 0) (h1 : ¬t.val % 28 = 27) : Vec F S256x4096 .f32 × Vec F S256x4096 .f32 :=
  (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t))

/-- A middle step at point t, over the accumulator xs the step before left. -/
def stepB (c : Dev nD) (t : Fin cfg0.N) (h0 : ¬t.val % 28 = 0) (h1 : ¬t.val % 28 = 27) (xs : Vec F S256x4096 .f32) : Vec F S256x4096 .f32 × Vec F S256x4096 .f32 :=
  (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs)

/-- A last step at point t, over the accumulator xs the step before left. -/
def stepC (c : Dev nD) (t : Fin cfg0.N) (h0 : ¬t.val % 28 = 0) (h1 : t.val % 28 = 27) (xs : Vec F S256x4096 .f32) : Vec F S256x4096 .f32 × Vec F S256x4096 .f32 :=
  (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs)

/-- THE ACCUMULATION. What the output window's staging buffer and the accumulator hold after the body at position
    n: the step the closed forms select at n, run on the point's input blocks, a middle or last step over the
    accumulator as position n - 1 left it. No point is both a first and a last step. -/
def outsAt0 (c : Dev nD) : (n : ℕ) → n < cfg0.N → Vec F S256x4096 .f32 × Vec F S256x4096 .f32
  | 0, hn => stepA V c ⟨0, hn⟩ (Nat.zero_mod _) (by show ¬0 % 28 = 27; decide)
  | n + 1, hn =>
    if h0 : (n + 1) % 28 = 0 then
      if h1 : (n + 1) % 28 = 27 then False.elim (by omega)
      else stepA V c ⟨n + 1, hn⟩ h0 h1
    else
      if h1 : (n + 1) % 28 = 27 then stepC V c ⟨n + 1, hn⟩ h0 h1 (outsAt0 c n (Nat.lt_of_succ_lt hn)).2
      else stepB V c ⟨n + 1, hn⟩ h0 h1 (outsAt0 c n (Nat.lt_of_succ_lt hn)).2

/-- At a first step. -/
theorem outsAt0_A (c : Dev nD) (t : Fin cfg0.N) (h0 : t.val % 28 = 0) (h1 : ¬t.val % 28 = 27) :
    outsAt0 V c t.val t.isLt = stepA V c t h0 h1 := by
  obtain ⟨n, hn⟩ := t
  cases n with
  | zero => exact rfl
  | succ n => exact (dif_pos h0).trans ((dif_neg h1).trans rfl)

/-- At a middle step: over what the point before left. -/
theorem outsAt0_B (c : Dev nD) (t : Fin cfg0.N) (h0 : ¬t.val % 28 = 0) (h1 : ¬t.val % 28 = 27) :
    outsAt0 V c t.val t.isLt = stepB V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 28 = 0) (h1 : t.val % 28 = 27) :
    outsAt0 V c t.val t.isLt = stepC V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the region's entry what the launch hands over (the accumulator at anything); afterwards
    the accumulator at what position n - 1 left in it, the fixed part, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The pipeline's proof data -/

/-- The proof data of the region on core c: the arrays as the region finds them; after the body at point t each
    input's buffer still at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input is never idle: the body hands its buffer back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which step the point is;
    the invariant hands the body the accumulator at what the point before left (at anything at the region's first
    point) and takes it back at this point's contents, the fixed part and the generator register untouched; the
    core owes nothing throughout. Away from a last step the output buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 896 := lt_of_lt_of_eq t.isLt (show cfg0.N = 896 from N_0)
  by_cases h0 : t.val % 28 = 0
  · have h1 : ¬t.val % 28 = 27 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold stepA sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 28 = 27
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold stepC out0_C_3 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold stepB sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's named contents are forgotten. -/
theorem Phi0_out (c : Dev nD) : (dat0 V c).Φ (Fin.last cfg0.N) ⊢ Pipeline.ΦA spec0 c := by
  have hne : (Fin.last cfg0.N).val ≠ 0 := by rw [Fin.val_last]; have : cfg0.N = 896 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Frame

end Cert.Kernel.Fr

end
-- ==== Proof.KB.R1Frame.lean ====
import proofs.«124112_j77154792505751_2_alg».proof.Proof.Gen.Kernel.Launch
import proofs.«124112_j77154792505751_2_alg».proof.Proof.Gen.Kernel.Skeleton
import proofs.«124112_j77154792505751_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of these extents is found by a structural descent, one step per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (the gate kernel, pipeline 1): its half of the frame proof

The kernel keeps nothing from one grid point to the next: at every point it reads its three input blocks, and the
one store it makes lays `k1_pay1` of them over the whole output block. Everything is stated at a PARAMETER `V`, the
TensorCore's buffer contents when the region is entered. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point. Its block index moves only every fourth point;
    where it has not moved the buffer still holds the block the body left in place at the point before, which is this
    point's. Stated for ANY proof data whose array is `V`'s and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point (it is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The third input's staging buffer holds its block at every point (it is fetched at each). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S256x4096 := Rect.unit (s := S256x4096) ![0, 0] S256x4096.size inb_S256x4096_S256x4096_0_0
abbrev r1_1 : Rect S1024x4096 := Rect.unit (s := S1024x4096) ![0, 0] S1024x4096.size inb_S1024x4096_S1024x4096_0_0
abbrev r1_2 : Rect S256x1024 := Rect.unit (s := S256x1024) ![0, 0] S256x1024.size inb_S256x1024_S256x1024_0_0

/-- The two zero offsets, as the constant function. -/
theorem zeros1 : (![0, 0] : Fin 2 → Nat) = fun _ => 0 := funext fun a => by fin_cases a <;> rfl

/-! ## What the body leaves in the output window's buffer -/

/-- The output window's staging buffer after the body, from the three input blocks: its one store as a piece over
    the payload of the three loads. -/
def out1_3 (x0 : Vec F S256x4096 .bf16) (x1 : Vec F S1024x4096 .bf16) (x2 : Vec F S256x1024 .f32) : Vec F S256x1024 .f32 :=
  View.canon [⟨r1_2, k1_pay1 (View.ld x0 r1_0) (View.ld x1 r1_1) (View.ld x2 r1_2)⟩]

/-- The one store is over the whole block, so it covers it. -/
theorem cover1_3 (p0 : Vec F S256x1024 .f32) (y : S256x1024.Idx) :
    ∃ pc ∈ ([⟨r1_2, p0⟩] : List (View.Piece (Elt F) S256x1024 .f32)), y ∈ pc.1.set :=
  ⟨_, List.mem_singleton_self _, View.mem_set_unit_zero zeros1 inb_S256x1024_S256x1024_0_0 y⟩

/-- Read back, the block the body leaves is the payload of the three input blocks: each load is of a whole buffer
    and the store is over the whole block. -/
theorem out1_3_eq (x0 : Vec F S256x4096 .bf16) (x1 : Vec F S1024x4096 .bf16) (x2 : Vec F S256x1024 .f32) :
    out1_3 x0 x1 x2 = k1_pay1 x0 x1 x2 := by
  unfold out1_3
  rw [View.canon_unit_zero zeros1, View.ld_unit_zero (S := S256x4096) zeros1, View.ld_unit_zero (S := S1024x4096) zeros1,
    View.ld_unit_zero (S := S256x1024) zeros1]

/-! ## The body's triple -/

set_option maxHeartbeats 1000000 in
/-- The kernel body on whole staging memrefs — the three inputs' at read contents `x0 x1 x2`, the output's at anything —
    runs to the continuation holding the inputs' as they were and the output's at `out1_3` of them. The printed function
    is its skeleton; the symbolic execution walks its four loads and its store. -/
theorem sound_kernel1 (c : Dev nD) (E : Set ℕ) (i : grid1.Coords)
    (arg2 : Memref sig .tc .vmem S256x4096 .bf16) (harg2 : arg2.IsWhole) (arg3 : Memref sig .tc .vmem S1024x4096 .bf16) (harg3 : arg3.IsWhole)
    (arg4 : Memref sig .tc .vmem S256x1024 .f32) (harg4 : arg4.IsWhole) (arg5 : Memref sig .tc .vmem S256x1024 .f32) (harg5 : arg5.IsWhole)
    (x0 : Vec F S256x4096 .bf16) (x1 : Vec F S1024x4096 .bf16) (x2 : Vec F S256x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gate_kernel i arg2 harg2 arg3 harg3 arg4 harg4 arg5 harg5) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pallas_call on core `c`: the arrays as the region finds them; after the body at point
    `t` each input's buffer at its block and the output's at `out1_3` of the three input blocks; the invariant is the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KB.Run.lean ====
import proofs.«124112_j77154792505751_2_alg».proof.Proof.Gen.Kernel.Launch
import proofs.«124112_j77154792505751_2_alg».proof.Proof.Gen.Kernel.Skeleton
import proofs.«124112_j77154792505751_2_alg».proof.Proof.Gen.Kernel.Points
import proofs.«124112_j77154792505751_2_alg».proof.Proof.Gen.Kernel.Regions
import proofs.«124112_j77154792505751_2_alg».proof.Proof.KB.R0Frame
import proofs.«124112_j77154792505751_2_alg».proof.Proof.KB.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of these extents is found by a structural descent, one step per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four segments from the launch to the return

A stretch of host operations, the two pallas_calls back to back, a closing stretch of host operations.

## The buffer contents at each segment boundary: a fold through @main -/

/-- Core `c`'s buffers at launch. -/
abbrev W0 : Dev nD → Valuation τ sig (Elt F) := fun c b => (s₀ m ρ).mem ((c : Dev nD), b)
/-- After the opening host stretch (where the first pallas_call is entered). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- Where the first pallas_call is left: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. No host operation stands between the two pallas_calls, so these are
    also the contents the second is entered at. -/
abbrev V2 : (c : Dev nD) → (b : Ref sig .tc) → Buf (Elt F) ((c : Thread nD τ).loc b) := fun c b => W2 m ρ c b
/-- Where the first pallas_call is left each of its arrays holds what the pipeline leaves and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Where the second pallas_call is left: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing host stretch: what the launch reads at the end. -/
abbrev W4 : Dev nD → Valuation τ sig (Elt F) := fun c => StableHlo.after hostOps2 (W3 m ρ c)

/-! ### The arguments end as launched

No host operation writes an argument, and no window of either pallas_call stages one: the fold at an argument's buffer
walks back to the launch memory. -/

/-- A reference that neither host stretch writes and that is no window's array of either pallas_call holds at the end
    what it held at launch. -/
theorem W4_of_untouched (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  calc W4 m ρ c (Proc.devRef .tc r)
    _ = W3 m ρ c (Proc.devRef .tc r) := StableHlo.after_of_writes_sub hostOps2 _ hostOps2_writes h2
    _ = W2 m ρ c (Proc.devRef .tc r) := W3_of_ne m ρ c r h1
    _ = W1 m ρ c (Proc.devRef .tc r) := W2_of_ne m ρ c r h0
    _ = W0 m ρ c (Proc.devRef .tc r) := StableHlo.after_of_writes_sub hostOps0 _ hostOps0_writes hh
    _ = m ((c : Thread nD τ).loc r) := rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)

/-! ## The proof data family and the thread state -/

/-- The prefetched tables' admissible contents: neither pipeline has a table. -/
abbrev adm : (p : Fin 2) → (pcfgs (F := F) p).Adm := fun p => (cfgs p).toPCfg_adm
/-- Each pipeline's proof data at its region's entry contents — a literal `match`, so that the pinned configuration at
    a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left with
    those references at the contents the operations make of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first pallas_call over the thread state: entered from every unscoped buffer at `W1`, left at `W2`. Its arrays
    are split out of the unscoped buffers and put back at the exit contents; the generator register and the scoped
    rest (the carried scratch among it) go into the class invariant, from which the pipeline's own invariant at the
    first point follows, and come back out of the invariant at the last point; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V1 m ρ) c)
    unfold Pipeline.ΦA
    iintro ⟨Hp, -, Hr⟩
    isplitl [Hr]; · iexact Hr
    iexact Hp
  hout c := by
    rw [Pipeline.ownSems0_none]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2` (where the first was
    left), left at `W3`. Its arrays are split out of the unscoped buffers and put back at the exit contents; the
    generator register goes into the class invariant and comes back out; nothing owed; no semaphore of the kernel's
    own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and in every final state each core's unscoped buffers hold the last boundary's
    contents `W4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every weakly fair execution of @main terminates, nothing faulting, and every final state has the seven
    argument arrays as launched — each read off `W4`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Fr

end
-- ==== Proof.KI.R0Base.lean ====
import proofs.«124112_j77154792505751_2_alg».proof.Proof.Gen.KernelIdeal.Launch
import proofs.«124112_j77154792505751_2_alg».proof.Proof.Gen.KernelIdeal.Skeleton
import proofs.«124112_j77154792505751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the closed forms below are decided over the grid's 896 points, one theorem at a time
set_option Elab.async false

/-! # Region 0: the accumulating kernel on the grid 32 x 28

The second grid axis is the reduction axis. At reduction step 0 the body clears its accumulator, at every step it
adds one partial product into it, and at step 27 it copies the accumulator into the output block. Everything here
is stated at a parameter V: what the TensorCore's buffers hold when the region is entered. -/

section Blocks

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not a
    transfer brought it there: where none did, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not a
    transfer brought it there: where none did, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not a
    transfer brought it there: where none did, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditionals of the body, in closed form -/

/-- The first conditional's test: the reduction coordinate is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 28). -/
theorem hcond0_0 : ∀ t : Fin cfg0.N, cond0_0 (grid0.coords t) ↔ t.val % 28 = 0 :=
  (by decide +kernel : ∀ t : Fin grid0.N, cond0_0 (grid0.coords t) ↔ t.val % 28 = 0)

/-- The second conditional's test: the reduction coordinate is 27, the last. -/
abbrev cond0_1 (i : grid0.Coords) : Prop := k0_cond2 i = 1#1
/-- It holds exactly at the points ≡ 27 (mod 28). -/
theorem hcond0_1 : ∀ t : Fin cfg0.N, cond0_1 (grid0.coords t) ↔ t.val % 28 = 27 :=
  (by decide +kernel : ∀ t : Fin grid0.N, cond0_1 (grid0.coords t) ↔ t.val % 28 = 27)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last reduction step the output window is idle (the body stores nothing into it) -/
theorem idleAt0_3 : ∀ t : Fin cfg0.N, ¬cond0_1 (grid0.coords t) → cfg0.idle 3 (grid0.coords t) = true := by decide +kernel
/-- and its block is not written back. -/
theorem noFlush0_3 : ∀ t : Fin cfg0.N, ¬cond0_1 (grid0.coords t) → (cfg0.win 3).flush t = false := by decide +kernel
/-- At the last reduction step the output window is live. -/
theorem liveAt0_3 : ∀ t : Fin cfg0.N, cond0_1 (grid0.coords t) → cfg0.idle 3 (grid0.coords t) = false := by decide +kernel

/-! ## The memrefs the body is called with -/

/-- One staging buffer of the output window, through which its contents are stated (the choice does not matter). -/
abbrev VO0_3 : View sig .tc .vmem S256x4096 .f32 := (Memref.whole cc0_stg3_0 : Memref sig .tc .vmem S256x4096 .f32).view
/-- Each window's current staging memref at point t, and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S256x4096 .f32 := Memref.whole cc0_scratch0
/-- The accumulator as a view: what it holds is stated through it. -/
abbrev VS0 : View sig .tc .vmem S256x4096 .f32 := scM0.view

/-! ## The region invariant's fixed part -/

/-- The scoped buffers that are neither the accumulator nor a staging buffer of this region (the next region's
    eight staging buffers), each whole at some contents. The body never touches them: one opaque conjunct. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the accumulator at some contents, the fixed part, the generator register at
    some state. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

end Cert.KernelIdeal.Fr

end
-- ==== Proof.KI.R0RunA.lean ====
import proofs.«124112_j77154792505751_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a first reduction step (the first conditional taken, the second not) -/

set_option maxHeartbeats 1000000 in
/-- At a first reduction step that is not the last: on whole memrefs, the inputs at contents x0 x1 x2, the output
    window's buffer at contents xi3 (handed back untouched: the body stores nothing into it), the accumulator at
    anything, the body runs to a state with the inputs as they were and the accumulator overwritten by the pieces
    LS (last store first). The pieces are found by running the body; the output gets none. -/
noncomputable def kernelRun0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨[], ?_, fun xi3 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunB.lean ====
import proofs.«124112_j77154792505751_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a middle reduction step (neither conditional taken) -/

set_option maxHeartbeats 1000000 in
/-- At a reduction step that is neither the first nor the last: as at a first step, but the accumulator is found
    at the contents xs the step before left and is read before it is overwritten. -/
noncomputable def kernelRun0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨[], ?_, fun xi3 E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunC.lean ====
import proofs.«124112_j77154792505751_2_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a last reduction step (the first conditional not taken, the second taken) -/

set_option maxHeartbeats 1000000 in
/-- At a last reduction step that is not the first: the accumulator is found at the contents xs the step before
    left, the output window's buffer at anything; the body leaves the accumulator overwritten by the pieces LS and
    the output buffer overwritten by the pieces L3 (the accumulator's new contents, copied). -/
noncomputable def kernelRun0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__ffn_kernel i arg2 harg2 arg3 harg3 arg4 harg4 arg5 harg5 arg6 harg6) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R0Frame.lean ====
import proofs.«124112_j77154792505751_2_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each step leaves, the proof data, the body obligation -/

/-- What a first step leaves in the output window's staging buffer: its pieces for that buffer read back over junk (it
    stores nothing there: a placeholder nothing consults, the window being idle and not written back). -/
def out0_A_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) : Vec F S256x4096 .f32 :=
  VO0_3.read (Elt F) (VO0_3.writes (Elt F) VO0_3.junk (kernelRun0_A c i arg2 harg2 arg3 harg3 arg4 harg4 arg5 harg5 arg6 harg6 hc0 hc1 x0 x1 x2).1)

/-- The pieces a first step writes into the accumulator tile it, so they cover it. -/
theorem scover0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) (y : S256x4096.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S256x4096.size (by sl_kernel_rfl) y

/-- What a first step leaves in the accumulator: its pieces read back over junk. -/
def sout0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x4096 .bf16) (x1 : Vec F S512x4096 .bf16) (x2 : Vec F S4096x512 .bf16) : Vec F S256x4096 .f32 :=
  VS0.read (Elt F) (VS0.writes (Elt F) VS0.junk (kernelRun0_A c i arg2 harg2 arg3 harg3 arg4 harg4 arg5 harg5 arg6 harg6 hc0 hc1 x0 x1 x2).2.1)

/-- What a middle step leaves in the output window's staging buffer: its pieces for that buffer read back over junk (it
    stores nothing there: a placeholder nothing consults, the window being idle and not written back). -/
def out0_B_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) : Vec F S256x4096 .f32 :=
  VO0_3.read (Elt F) (VO0_3.writes (Elt F) VO0_3.junk (kernelRun0_B c i arg2 harg2 arg3 harg3 arg4 harg4 arg5 harg5 arg6 harg6 hc0 hc1 x0 x1 x2 xs).1)

/-- The pieces a middle step writes into the accumulator tile it, so they cover it. -/
theorem scover0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) (y : S256x4096.Idx) :
    ∃ pc ∈ (kernelRun0_B c i arg2 harg2 arg3 harg3 arg4 harg4 arg5 harg5 arg6 harg6 hc0 hc1 x0 x1 x2 xs).2.1, y ∈ pc.1.set :=
  View.cover_of_tiledL (kernelRun0_B c i arg2 harg2 arg3 harg3 arg4 harg4 arg5 harg5 arg6 harg6 hc0 hc1 x0 x1 x2 xs).2.1 S256x4096.size (by sl_kernel_rfl) y

/-- What a middle step leaves in the accumulator: its pieces read back over junk. -/
def sout0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x4096 .bf16) (x1 : Vec F S512x4096 .bf16) (x2 : Vec F S4096x512 .bf16) (xs : Vec F S256x4096 .f32) : Vec F S256x4096 .f32 :=
  VS0.read (Elt F) (VS0.writes (Elt F) VS0.junk (kernelRun0_B c i arg2 harg2 arg3 harg3 arg4 harg4 arg5 harg5 arg6 harg6 hc0 hc1 x0 x1 x2 xs).2.1)

/-- The piece a last step writes into the output window's buffer tiles it, so it covers it. -/
theorem cover0_C_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) (y : S256x4096.Idx) :
    ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S256x4096.size (by sl_kernel_rfl) y

/-- What a last step leaves in the output window's staging buffer: its pieces for that buffer read back over junk. -/
def out0_C_3 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) : Vec F S256x4096 .f32 :=
  VO0_3.read (Elt F) (VO0_3.writes (Elt F) VO0_3.junk (kernelRun0_C c i arg2 harg2 arg3 harg3 arg4 harg4 arg5 harg5 arg6 harg6 hc0 hc1 x0 x1 x2 xs).1)

/-- The pieces a last step writes into the accumulator tile it, so they cover it. -/
theorem scover0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) (y : S256x4096.Idx) :
    ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S256x4096.size (by sl_kernel_rfl) y

/-- What a last step leaves in the accumulator: its pieces read back over junk. -/
def sout0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x4096 .bf16) (x1 : Vec F S512x4096 .bf16) (x2 : Vec F S4096x512 .bf16) (xs : Vec F S256x4096 .f32) : Vec F S256x4096 .f32 :=
  VS0.read (Elt F) (VS0.writes (Elt F) VS0.junk (kernelRun0_C c i arg2 harg2 arg3 harg3 arg4 harg4 arg5 harg5 arg6 harg6 hc0 hc1 x0 x1 x2 xs).2.1)

section Frame

variable (V : (c : Dev nD) → (b : Ref sig .tc) → Buf (Elt F) ((c : Thread nD τ).loc b))

/-! ## The accumulation, point by point -/

/-- A first step at point t: (the output buffer, the accumulator) after the body, from the three input blocks. -/
def stepA (c : Dev nD) (t : Fin cfg0.N) (h0 : t.val % 28 = 0) (h1 : ¬t.val % 28 = 27) : Vec F S256x4096 .f32 × Vec F S256x4096 .f32 :=
  (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t))

/-- A middle step at point t, over the accumulator xs the step before left. -/
def stepB (c : Dev nD) (t : Fin cfg0.N) (h0 : ¬t.val % 28 = 0) (h1 : ¬t.val % 28 = 27) (xs : Vec F S256x4096 .f32) : Vec F S256x4096 .f32 × Vec F S256x4096 .f32 :=
  (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs)

/-- A last step at point t, over the accumulator xs the step before left. -/
def stepC (c : Dev nD) (t : Fin cfg0.N) (h0 : ¬t.val % 28 = 0) (h1 : t.val % 28 = 27) (xs : Vec F S256x4096 .f32) : Vec F S256x4096 .f32 × Vec F S256x4096 .f32 :=
  (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs)

/-- THE ACCUMULATION. What the output window's staging buffer and the accumulator hold after the body at position
    n: the step the closed forms select at n, run on the point's input blocks, a middle or last step over the
    accumulator as position n - 1 left it. No point is both a first and a last step. -/
def outsAt0 (c : Dev nD) : (n : ℕ) → n < cfg0.N → Vec F S256x4096 .f32 × Vec F S256x4096 .f32
  | 0, hn => stepA V c ⟨0, hn⟩ (Nat.zero_mod _) (by show ¬0 % 28 = 27; decide)
  | n + 1, hn =>
    if h0 : (n + 1) % 28 = 0 then
      if h1 : (n + 1) % 28 = 27 then False.elim (by omega)
      else stepA V c ⟨n + 1, hn⟩ h0 h1
    else
      if h1 : (n + 1) % 28 = 27 then stepC V c ⟨n + 1, hn⟩ h0 h1 (outsAt0 c n (Nat.lt_of_succ_lt hn)).2
      else stepB V c ⟨n + 1, hn⟩ h0 h1 (outsAt0 c n (Nat.lt_of_succ_lt hn)).2

/-- At a first step. -/
theorem outsAt0_A (c : Dev nD) (t : Fin cfg0.N) (h0 : t.val % 28 = 0) (h1 : ¬t.val % 28 = 27) :
    outsAt0 V c t.val t.isLt = stepA V c t h0 h1 := by
  obtain ⟨n, hn⟩ := t
  cases n with
  | zero => exact rfl
  | succ n => exact (dif_pos h0).trans ((dif_neg h1).trans rfl)

/-- At a middle step: over what the point before left. -/
theorem outsAt0_B (c : Dev nD) (t : Fin cfg0.N) (h0 : ¬t.val % 28 = 0) (h1 : ¬t.val % 28 = 27) :
    outsAt0 V c t.val t.isLt = stepB V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 28 = 0) (h1 : t.val % 28 = 27) :
    outsAt0 V c t.val t.isLt = stepC V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the region's entry what the launch hands over (the accumulator at anything); afterwards
    the accumulator at what position n - 1 left in it, the fixed part, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The pipeline's proof data -/

/-- The proof data of the region on core c: the arrays as the region finds them; after the body at point t each
    input's buffer still at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input is never idle: the body hands its buffer back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which step the point is;
    the invariant hands the body the accumulator at what the point before left (at anything at the region's first
    point) and takes it back at this point's contents, the fixed part and the generator register untouched; the
    core owes nothing throughout. Away from a last step the output buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 896 := lt_of_lt_of_eq t.isLt (show cfg0.N = 896 from N_0)
  by_cases h0 : t.val % 28 = 0
  · have h1 : ¬t.val % 28 = 27 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold stepA sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 28 = 27
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold stepC out0_C_3 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold stepB sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's named contents are forgotten. -/
theorem Phi0_out (c : Dev nD) : (dat0 V c).Φ (Fin.last cfg0.N) ⊢ Pipeline.ΦA spec0 c := by
  have hne : (Fin.last cfg0.N).val ≠ 0 := by rw [Fin.val_last]; have : cfg0.N = 896 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Frame

end Cert.KernelIdeal.Fr

end
-- ==== Proof.KI.R1Frame.lean ====
import proofs.«124112_j77154792505751_2_alg».proof.Proof.Gen.KernelIdeal.Launch
import proofs.«124112_j77154792505751_2_alg».proof.Proof.Gen.KernelIdeal.Skeleton
import proofs.«124112_j77154792505751_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of these extents is found by a structural descent, one step per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (the gate kernel, pipeline 1): its half of the frame proof

The kernel keeps nothing from one grid point to the next: at every point it reads its three input blocks, and the
one store it makes lays `k1_pay1` of them over the whole output block. Everything is stated at a PARAMETER `V`, the
TensorCore's buffer contents when the region is entered. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point. Its block index moves only every fourth point;
    where it has not moved the buffer still holds the block the body left in place at the point before, which is this
    point's. Stated for ANY proof data whose array is `V`'s and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point (it is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The third input's staging buffer holds its block at every point (it is fetched at each). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S256x4096 := Rect.unit (s := S256x4096) ![0, 0] S256x4096.size inb_S256x4096_S256x4096_0_0
abbrev r1_1 : Rect S1024x4096 := Rect.unit (s := S1024x4096) ![0, 0] S1024x4096.size inb_S1024x4096_S1024x4096_0_0
abbrev r1_2 : Rect S256x1024 := Rect.unit (s := S256x1024) ![0, 0] S256x1024.size inb_S256x1024_S256x1024_0_0

/-- The two zero offsets, as the constant function. -/
theorem zeros1 : (![0, 0] : Fin 2 → Nat) = fun _ => 0 := funext fun a => by fin_cases a <;> rfl

/-! ## What the body leaves in the output window's buffer -/

/-- The output window's staging buffer after the body, from the three input blocks: its one store as a piece over
    the payload of the three loads. -/
def out1_3 (x0 : Vec F S256x4096 .bf16) (x1 : Vec F S1024x4096 .bf16) (x2 : Vec F S256x1024 .f32) : Vec F S256x1024 .f32 :=
  View.canon [⟨r1_2, k1_pay1 (View.ld x0 r1_0) (View.ld x1 r1_1) (View.ld x2 r1_2)⟩]

/-- The one store is over the whole block, so it covers it. -/
theorem cover1_3 (p0 : Vec F S256x1024 .f32) (y : S256x1024.Idx) :
    ∃ pc ∈ ([⟨r1_2, p0⟩] : List (View.Piece (Elt F) S256x1024 .f32)), y ∈ pc.1.set :=
  ⟨_, List.mem_singleton_self _, View.mem_set_unit_zero zeros1 inb_S256x1024_S256x1024_0_0 y⟩

/-- Read back, the block the body leaves is the payload of the three input blocks: each load is of a whole buffer
    and the store is over the whole block. -/
theorem out1_3_eq (x0 : Vec F S256x4096 .bf16) (x1 : Vec F S1024x4096 .bf16) (x2 : Vec F S256x1024 .f32) :
    out1_3 x0 x1 x2 = k1_pay1 x0 x1 x2 := by
  unfold out1_3
  rw [View.canon_unit_zero zeros1, View.ld_unit_zero (S := S256x4096) zeros1, View.ld_unit_zero (S := S1024x4096) zeros1,
    View.ld_unit_zero (S := S256x1024) zeros1]

/-! ## The body's triple -/

set_option maxHeartbeats 1000000 in
/-- The kernel body on whole staging memrefs — the three inputs' at read contents `x0 x1 x2`, the output's at anything —
    runs to the continuation holding the inputs' as they were and the output's at `out1_3` of them. The printed function
    is its skeleton; the symbolic execution walks its four loads and its store. -/
theorem sound_kernel1 (c : Dev nD) (E : Set ℕ) (i : grid1.Coords)
    (arg2 : Memref sig .tc .vmem S256x4096 .bf16) (harg2 : arg2.IsWhole) (arg3 : Memref sig .tc .vmem S1024x4096 .bf16) (harg3 : arg3.IsWhole)
    (arg4 : Memref sig .tc .vmem S256x1024 .f32) (harg4 : arg4.IsWhole) (arg5 : Memref sig .tc .vmem S256x1024 .f32) (harg5 : arg5.IsWhole)
    (x0 : Vec F S256x4096 .bf16) (x1 : Vec F S1024x4096 .bf16) (x2 : Vec F S256x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gate_kernel i arg2 harg2 arg3 harg3 arg4 harg4 arg5 harg5) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pallas_call on core `c`: the arrays as the region finds them; after the body at point
    `t` each input's buffer at its block and the output's at `out1_3` of the three input blocks; the invariant is the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Run.lean ====
import proofs.«124112_j77154792505751_2_alg».proof.Proof.Gen.KernelIdeal.Launch
import proofs.«124112_j77154792505751_2_alg».proof.Proof.Gen.KernelIdeal.Skeleton
import proofs.«124112_j77154792505751_2_alg».proof.Proof.Gen.KernelIdeal.Points
import proofs.«124112_j77154792505751_2_alg».proof.Proof.Gen.KernelIdeal.Regions
import proofs.«124112_j77154792505751_2_alg».proof.Proof.KI.R0Frame
import proofs.«124112_j77154792505751_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-block rectangle of these extents is found by a structural descent, one step per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four segments from the launch to the return

A stretch of host operations, the two pallas_calls back to back, a closing stretch of host operations.

## The buffer contents at each segment boundary: a fold through @main -/

/-- Core `c`'s buffers at launch. -/
abbrev W0 : Dev nD → Valuation τ sig (Elt F) := fun c b => (s₀ m ρ).mem ((c : Dev nD), b)
/-- After the opening host stretch (where the first pallas_call is entered). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- Where the first pallas_call is left: its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. No host operation stands between the two pallas_calls, so these are
    also the contents the second is entered at. -/
abbrev V2 : (c : Dev nD) → (b : Ref sig .tc) → Buf (Elt F) ((c : Thread nD τ).loc b) := fun c b => W2 m ρ c b
/-- Where the first pallas_call is left each of its arrays holds what the pipeline leaves and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Where the second pallas_call is left: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing host stretch: what the launch reads at the end. -/
abbrev W4 : Dev nD → Valuation τ sig (Elt F) := fun c => StableHlo.after hostOps2 (W3 m ρ c)

/-! ### The arguments end as launched

No host operation writes an argument, and no window of either pallas_call stages one: the fold at an argument's buffer
walks back to the launch memory. -/

/-- A reference that neither host stretch writes and that is no window's array of either pallas_call holds at the end
    what it held at launch. -/
theorem W4_of_untouched (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  calc W4 m ρ c (Proc.devRef .tc r)
    _ = W3 m ρ c (Proc.devRef .tc r) := StableHlo.after_of_writes_sub hostOps2 _ hostOps2_writes h2
    _ = W2 m ρ c (Proc.devRef .tc r) := W3_of_ne m ρ c r h1
    _ = W1 m ρ c (Proc.devRef .tc r) := W2_of_ne m ρ c r h0
    _ = W0 m ρ c (Proc.devRef .tc r) := StableHlo.after_of_writes_sub hostOps0 _ hostOps0_writes hh
    _ = m ((c : Thread nD τ).loc r) := rfl

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)

/-! ## The proof data family and the thread state -/

/-- The prefetched tables' admissible contents: neither pipeline has a table. -/
abbrev adm : (p : Fin 2) → (pcfgs (F := F) p).Adm := fun p => (cfgs p).toPCfg_adm
/-- Each pipeline's proof data at its region's entry contents — a literal `match`, so that the pinned configuration at
    a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left with
    those references at the contents the operations make of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first pallas_call over the thread state: entered from every unscoped buffer at `W1`, left at `W2`. Its arrays
    are split out of the unscoped buffers and put back at the exit contents; the generator register and the scoped
    rest (the carried scratch among it) go into the class invariant, from which the pipeline's own invariant at the
    first point follows, and come back out of the invariant at the last point; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V1 m ρ) c)
    unfold Pipeline.ΦA
    iintro ⟨Hp, -, Hr⟩
    isplitl [Hr]; · iexact Hr
    iexact Hp
  hout c := by
    rw [Pipeline.ownSems0_none]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2` (where the first was
    left), left at `W3`. Its arrays are split out of the unscoped buffers and put back at the exit contents; the
    generator register goes into the class invariant and comes back out; nothing owed; no semaphore of the kernel's
    own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and in every final state each core's unscoped buffers hold the last boundary's
    contents `W4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every weakly fair execution of @main terminates, nothing faulting, and every final state has the seven
    argument arrays as launched — each read off `W4`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Fr

end
-- ==== Proof.Spec.lean ====
/-
  What the two programs compute, as plain formulas over the extended reals.

  With M = 8192 rows (batch × time), C = 4096 channels and F = 14336 hidden units:
  * the token-shift mix of a row with the row before it, `xx · μ + x · (1 - μ)`;
  * the squared-ReLU feed-forward value `kv (r, c) = ∑ f, (max (∑ k, xk (r, k) · Wk (f, k)) 0)² · Wv (c, f)`;
  * the receptance gate `out (r, c) = logistic (∑ k, xr (r, k) · Wr (c, k)) · kv (r, c)`.
  Both matrix products contract the LAST axis of both operands (a product with a transposed right factor).
  Matrices are curried functions of literal `Fin` coordinates; `mat` and `arr` move between them and rank-2 arrays.
-/
import Idealize.ShloMosaic.Lib.ValueIdx

noncomputable section

namespace Cert.Spec

open Idealize.ShloMosaic Idealize.ShloMosaic.ValueIdx

/-- The positive part, squared. -/
def rsq (a : EReal) : EReal := max a 0 * max a 0

/-- The feed-forward value at row `r`, channel `c`: the sum over ALL hidden units. -/
def ffn {M C H : ℕ} (xk : Fin M → Fin C → EReal) (kw : Fin H → Fin C → EReal) (vw : Fin C → Fin H → EReal)
    (r : Fin M) (c : Fin C) : EReal :=
  ∑ f : Fin H, rsq (∑ k : Fin C, xk r k * kw f k) * vw c f

/-- The gated output at row `r`, channel `c`. -/
def gate {M C : ℕ} (xr : Fin M → Fin C → EReal) (rw : Fin C → Fin C → EReal) (kv : Fin M → Fin C → EReal)
    (r : Fin M) (c : Fin C) : EReal :=
  Ideal.logistic (∑ k : Fin C, xr r k * rw c k) * kv r c

/-- A rank-2 array read as a matrix. -/
def mat {a b : ℕ} (x : (⟨2, ![a, b]⟩ : Shape).Idx → EReal) (p : Fin a) (q : Fin b) : EReal := x (ix2 p q)

/-- A matrix as a rank-2 array. -/
def arr {a b : ℕ} (f : Fin a → Fin b → EReal) : (⟨2, ![a, b]⟩ : Shape).Idx → EReal := fun j => f (j 0) (j 1)

theorem arr_ix2 {a b : ℕ} (f : Fin a → Fin b → EReal) (p : Fin a) (q : Fin b) : arr f (ix2 p q) = f p q := rfl

theorem mat_arr {a b : ℕ} (f : Fin a → Fin b → EReal) : mat (arr f) = f := rfl

end Cert.Spec

end
-- ==== Proof.KI.Val0Pay.lean ====
/-
  The arithmetic of one grid point of the feed-forward region, read entry by entry over the extended reals.

  A grid point holds a block of 256 rows of the activations (256 × 4096), a block of 512 hidden units of the key
  weights (512 × 4096) and the matching 512 columns of the value weights (4096 × 512). Its body first forms, for each
  row `p` and hidden unit `f` of the block, the inner product `∑ k, x (p, k) · Wk (f, k)` (a product with a transposed
  right factor: both operands are contracted along their LAST axis), takes the positive part and squares it, and then
  adds to the running 256 × 4096 accumulator the second product `∑ f, sq (p, f) · Wv (q, f)`, again contracted along
  the last axis of both operands. Changes of float format and shape casts to the same shape are the identity at the
  ideal values, and a product into the zero splat is just the sum.
-/
import proofs.«124112_j77154792505751_2_alg».proof.Proof.Gen.KernelIdeal.Skeleton
import proofs.«124112_j77154792505751_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx

/-! ## The two products, entry by entry -/

/-- The first product of a grid point: entry `(p, f)` is the inner product of row `p` of the left operand with row
    `f` of the right operand. -/
theorem keyProduct_apply (l : FVec Ideal S256x4096 .bf16) (r : FVec Ideal S512x4096 .bf16) (p : Fin 256) (f : Fin 512) :
    matmul dot_S256x4096_S512x4096_S256x512_1_1_0_0_n_n none l r (constant S256x512 .f32 0x00000000#32) (ix2 p f)
      = ∑ k : Fin 4096, l (ix2 p k) * r (ix2 f k) := by
  refine (Ideal.matmul_constant_zero_apply dot_S256x4096_S512x4096_S256x512_1_1_0_0_n_n none l r (ix2 p f)).trans ?_
  rw [← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p f)
      ((contrEquiv1 dot_S256x4096_S512x4096_S256x512_1_1_0_0_n_n 4096 rfl rfl).symm k) = ix2 p k :=
    funext fun a => Fin.ext (by
      match a with
      | ⟨0, _⟩ =>
        show (dot_S256x4096_S512x4096_S256x512_1_1_0_0_n_n.lhsIdx _ _ 0).val = p.val
        unfold DotDims.lhsIdx
        rw [dif_neg (show ¬(0 : Fin S256x4096.rank) ∈ dot_S256x4096_S512x4096_S256x512_1_1_0_0_n_n.lhsBatch by decide),
          dif_pos (show (0 : Fin S256x4096.rank) ∈ dot_S256x4096_S512x4096_S256x512_1_1_0_0_n_n.lhsNonContracting by decide)]
        rfl
      | ⟨1, _⟩ =>
        exact (dot_S256x4096_S512x4096_S256x512_1_1_0_0_n_n.lhsIdx_val_of_single rfl _ _).trans hk)
  have er : dot_S256x4096_S512x4096_S256x512_1_1_0_0_n_n.rhsIdx (ix2 p f)
      ((contrEquiv1 dot_S256x4096_S512x4096_S256x512_1_1_0_0_n_n 4096 rfl rfl).symm k) = ix2 f k :=
    funext fun a => Fin.ext (by
      match a with
      | ⟨0, _⟩ =>
        show (dot_S256x4096_S512x4096_S256x512_1_1_0_0_n_n.rhsIdx _ _ 0).val = f.val
        unfold DotDims.rhsIdx
        rw [dif_neg (show ¬(0 : Fin S512x4096.rank) ∈ dot_S256x4096_S512x4096_S256x512_1_1_0_0_n_n.rhsBatch by decide),
          dif_pos (show (0 : Fin S512x4096.rank) ∈ dot_S256x4096_S512x4096_S256x512_1_1_0_0_n_n.rhsNonContracting by decide)]
        rfl
      | ⟨1, _⟩ =>
        exact (dot_S256x4096_S512x4096_S256x512_1_1_0_0_n_n.rhsIdx_val_of_single rfl _ _).trans hk)
  rw [el, er]

/-- The second product of a grid point: entry `(p, q)` is the inner product of row `p` of the left operand with row
    `q` of the right operand, over the 512 hidden units of the block. -/
theorem valueProduct_apply (l : FVec Ideal S256x512 .bf16) (r : FVec Ideal S4096x512 .bf16) (p : Fin 256) (q : Fin 4096) :
    matmul dot_S256x512_S4096x512_S256x4096_1_1_0_0_n_n none l r (constant S256x4096 .f32 0x00000000#32) (ix2 p q)
      = ∑ f : Fin 512, l (ix2 p f) * r (ix2 q f) := by
  refine (Ideal.matmul_constant_zero_apply dot_S256x512_S4096x512_S256x4096_1_1_0_0_n_n none l r (ix2 p q)).trans ?_
  rw [← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p q)
      ((contrEquiv1 dot_S256x512_S4096x512_S256x4096_1_1_0_0_n_n 512 rfl rfl).symm k) = ix2 p k :=
    funext fun a => Fin.ext (by
      match a with
      | ⟨0, _⟩ =>
        show (dot_S256x512_S4096x512_S256x4096_1_1_0_0_n_n.lhsIdx _ _ 0).val = p.val
        unfold DotDims.lhsIdx
        rw [dif_neg (show ¬(0 : Fin S256x512.rank) ∈ dot_S256x512_S4096x512_S256x4096_1_1_0_0_n_n.lhsBatch by decide),
          dif_pos (show (0 : Fin S256x512.rank) ∈ dot_S256x512_S4096x512_S256x4096_1_1_0_0_n_n.lhsNonContracting by decide)]
        rfl
      | ⟨1, _⟩ =>
        exact (dot_S256x512_S4096x512_S256x4096_1_1_0_0_n_n.lhsIdx_val_of_single rfl _ _).trans hk)
  have er : dot_S256x512_S4096x512_S256x4096_1_1_0_0_n_n.rhsIdx (ix2 p q)
      ((contrEquiv1 dot_S256x512_S4096x512_S256x4096_1_1_0_0_n_n 512 rfl rfl).symm k) = ix2 q k :=
    funext fun a => Fin.ext (by
      match a with
      | ⟨0, _⟩ =>
        show (dot_S256x512_S4096x512_S256x4096_1_1_0_0_n_n.rhsIdx _ _ 0).val = q.val
        unfold DotDims.rhsIdx
        rw [dif_neg (show ¬(0 : Fin S4096x512.rank) ∈ dot_S256x512_S4096x512_S256x4096_1_1_0_0_n_n.rhsBatch by decide),
          dif_pos (show (0 : Fin S4096x512.rank) ∈ dot_S256x512_S4096x512_S256x4096_1_1_0_0_n_n.rhsNonContracting by decide)]
        rfl
      | ⟨1, _⟩ =>
        exact (dot_S256x512_S4096x512_S256x4096_1_1_0_0_n_n.rhsIdx_val_of_single rfl _ _).trans hk)
  rw [el, er]

/-! ## The two stored values -/

/-- What the first step of a row block stores into the accumulator: zero everywhere. -/
theorem pay1_apply (j : S256x4096.Idx) : k0_pay1 (F := Ideal) j = 0 := by
  unfold k0_pay1
  simp only [shapeCast_self]
  exact Ideal.ofBits_zero_f32

/-- What every step stores into the accumulator: the accumulator it found plus, over the block's 512 hidden units,
    the squared positive part of the key product times the value weight. -/
theorem pay2_apply (x0 : Vec Ideal S256x4096 .bf16) (x1 : Vec Ideal S512x4096 .bf16) (a : Vec Ideal S256x4096 .f32)
    (x2 : Vec Ideal S4096x512 .bf16) (p : Fin 256) (q : Fin 4096) :
    k0_pay2 x0 x1 a x2 (ix2 p q)
      = a (ix2 p q) + ∑ f : Fin 512, Spec.rsq (∑ k : Fin 4096, x0 (ix2 p k) * x1 (ix2 f k)) * x2 (ix2 q f) := by
  unfold k0_pay2
  simp only [shapeCast_self]
  refine (addf_apply _ _ _).trans ?_
  refine congrArg (a (ix2 p q) + ·) ?_
  refine (valueProduct_apply _ _ p q).trans ?_
  refine Finset.sum_congr rfl fun f _ => ?_
  refine congrArg (· * x2 (ix2 q f)) ?_
  show max (matmul dot_S256x4096_S512x4096_S256x512_1_1_0_0_n_n none x0 x1 (constant S256x512 .f32 0x00000000#32) (ix2 p f))
        (Ideal.ofBits .f32 0x00000000#32)
      * max (matmul dot_S256x4096_S512x4096_S256x512_1_1_0_0_n_n none x0 x1 (constant S256x512 .f32 0x00000000#32) (ix2 p f))
        (Ideal.ofBits .f32 0x00000000#32) = _
  rw [keyProduct_apply, Ideal.ofBits_zero_f32]
  rfl

end Cert.KernelIdeal.Val

end
-- ==== Proof.KI.Val0Blk.lean ====
/-
  Where the blocks of a grid point of the feed-forward region sit in their arrays.

  The grid has 32 × 28 points; point `t` works on row block `t / 28` (256 rows of the 8192) and on hidden block
  `t % 28` (512 hidden units of the 14336). The activations' block is rows `256 · (t / 28) + p`, all 4096 channels; the
  key weights' block is rows `512 · (t % 28) + f`, all channels; the value weights' block is all 4096 rows and columns
  `512 · (t % 28) + f`. An element of a block sits in its array, on each axis, at the block index times the block's
  extent plus its own coordinate.
-/
import proofs.«124112_j77154792505751_2_alg».proof.Proof.KI.R0Base
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

variable {F : FTy → Type} [FloatOps F]
variable (V : (c : Dev nD) → (b : Ref sig .tc) → Buf (Elt F) ((c : Thread nD τ).loc b))

/-- The block indices of the four windows at a grid point, decided over the grid: the row block is the quotient and the
    hidden block the remainder of the point's position by 28. -/
theorem blockIndex : ∀ t : Fin cfg0.N,
    win0_0.index t (0 : Fin 2) = t.val / 28 ∧ win0_0.index t (1 : Fin 2) = 0
    ∧ win0_1.index t (0 : Fin 2) = t.val % 28 ∧ win0_1.index t (1 : Fin 2) = 0
    ∧ win0_2.index t (0 : Fin 2) = 0 ∧ win0_2.index t (1 : Fin 2) = t.val % 28
    ∧ win0_3.index t (0 : Fin 2) = t.val / 28 ∧ win0_3.index t (1 : Fin 2) = 0 :=
  (by decide +kernel : ∀ t : Fin grid0.N, _)

/-- The activations' block at point `t`: entry `(p, k)` is the array's entry at row `256 · (t / 28) + p`. -/
theorem xkBlock_apply (c : Dev nD) (t : Fin cfg0.N) (p : Fin 256) (k : Fin 4096) (r : Fin 8192)
    (hr : r.val = 256 * (t.val / 28) + p.val) :
    iblk0 V c 0 t (ix2 p k) = V c main_v13 (ix2 r k) := by
  obtain ⟨e0, e1, -⟩ := blockIndex t
  unfold iblk0
  show V c main_v13 (((cfg0.win 0).blk t).view.emb (ix2 p k)) = V c main_v13 (ix2 r k)
  refine congrArg (V c main_v13) ?_
  funext a
  apply Fin.ext
  match a with
  | ⟨0, _⟩ => show win0_0.index t (0 : Fin 2) * 256 + 1 * p.val = r.val; omega
  | ⟨1, _⟩ => show win0_0.index t (1 : Fin 2) * 4096 + 1 * k.val = k.val; omega

/-- The key weights' block at point `t`: entry `(f, k)` is the array's entry at row `512 · (t % 28) + f`. -/
theorem kwBlock_apply (c : Dev nD) (t : Fin cfg0.N) (f : Fin 512) (k : Fin 4096) (h : Fin 14336)
    (hh : h.val = 512 * (t.val % 28) + f.val) :
    iblk0 V c 1 t (ix2 f k) = V c main_v22 (ix2 h k) := by
  obtain ⟨-, -, e0, e1, -⟩ := blockIndex t
  unfold iblk0
  show V c main_v22 (((cfg0.win 1).blk t).view.emb (ix2 f k)) = V c main_v22 (ix2 h k)
  refine congrArg (V c main_v22) ?_
  funext a
  apply Fin.ext
  match a with
  | ⟨0, _⟩ => show win0_1.index t (0 : Fin 2) * 512 + 1 * f.val = h.val; omega
  | ⟨1, _⟩ => show win0_1.index t (1 : Fin 2) * 4096 + 1 * k.val = k.val; omega

/-- The value weights' block at point `t`: entry `(q, f)` is the array's entry at column `512 · (t % 28) + f`. -/
theorem vwBlock_apply (c : Dev nD) (t : Fin cfg0.N) (q : Fin 4096) (f : Fin 512) (h : Fin 14336)
    (hh : h.val = 512 * (t.val % 28) + f.val) :
    iblk0 V c 2 t (ix2 q f) = V c main_v23 (ix2 q h) := by
  obtain ⟨-, -, -, -, e0, e1, -⟩ := blockIndex t
  unfold iblk0
  show V c main_v23 (((cfg0.win 2).blk t).view.emb (ix2 q f)) = V c main_v23 (ix2 q h)
  refine congrArg (V c main_v23) ?_
  funext a
  apply Fin.ext
  match a with
  | ⟨0, _⟩ => show win0_2.index t (0 : Fin 2) * 4096 + 1 * q.val = q.val; omega
  | ⟨1, _⟩ => show win0_2.index t (1 : Fin 2) * 512 + 1 * f.val = h.val; omega

end Cert.KernelIdeal.Val

end
-- ==== Proof.KI.R0Value.lean ====
import proofs.«124112_j77154792505751_2_alg».proof.Proof.KI.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values: what the accumulator and the output block hold, over the body's two payloads -/

/-- Every access of the body is through the whole-buffer rectangle at offset (0, 0). -/
theorem off00 : (![0, 0] : Fin 2 → Nat) = fun _ => 0 := funext fun a => by fin_cases a <;> rfl

/-- A first step leaves in the accumulator the partial product added to the cleared accumulator: the body stores
    the zero block, reads it back, and stores the sum over it. -/
theorem sout0_A_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i) (x0 : Vec F S256x4096 .bf16) (x1 : Vec F S512x4096 .bf16) (x2 : Vec F S4096x512 .bf16) :
    sout0_A c i arg2 harg2 arg3 harg3 arg4 harg4 arg5 harg5 arg6 harg6 hc0 hc1 x0 x1 x2 = k0_pay2 x0 x1 (k0_pay1 (F := F)) x2 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S256x4096) off00, View.readCov_unit_zero (S := S256x4096) _ off00]
  simp only [View.readAt_eq_ld, harg2.read_unread, harg3.read_unread, harg4.read_unread, View.ld_unit_zero (S := S256x4096) off00, View.ld_unit_zero (S := S512x4096) off00, View.ld_unit_zero (S := S4096x512) off00]

/-- A middle step leaves in the accumulator the partial product added to what it found there. -/
theorem sout0_B_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i) (x0 : Vec F S256x4096 .bf16) (x1 : Vec F S512x4096 .bf16) (x2 : Vec F S4096x512 .bf16) (xs : Vec F S256x4096 .f32) :
    sout0_B c i arg2 harg2 arg3 harg3 arg4 harg4 arg5 harg5 arg6 harg6 hc0 hc1 x0 x1 x2 xs = k0_pay2 x0 x1 xs x2 := by
  unfold sout0_B
  rw [View.read_writes_eq_canon _ _ _ (scover0_B c i arg2 harg2 arg3 harg3 arg4 harg4 arg5 harg5 arg6 harg6 hc0 hc1 x0 x1 x2 xs)]
  unfold kernelRun0_B
  dsimp only
  rw [View.canon_unit_zero (S := S256x4096) off00]
  simp only [View.readAt_eq_ld, harg2.read_unread, harg3.read_unread, harg4.read_unread, harg6.read_unread, View.ld_unit_zero (S := S256x4096) off00, View.ld_unit_zero (S := S512x4096) off00, View.ld_unit_zero (S := S4096x512) off00]

/-- A last step leaves in the accumulator the partial product added to what it found there, -/
theorem sout0_C_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i) (x0 : Vec F S256x4096 .bf16) (x1 : Vec F S512x4096 .bf16) (x2 : Vec F S4096x512 .bf16) (xs : Vec F S256x4096 .f32) :
    sout0_C c i arg2 harg2 arg3 harg3 arg4 harg4 arg5 harg5 arg6 harg6 hc0 hc1 x0 x1 x2 xs = k0_pay2 x0 x1 xs x2 := by
  unfold sout0_C
  rw [View.read_writes_eq_canon _ _ _ (scover0_C c i arg2 harg2 arg3 harg3 arg4 harg4 arg5 harg5 arg6 harg6 hc0 hc1 x0 x1 x2 xs)]
  unfold kernelRun0_C
  dsimp only
  sl_unfold_words
  rw [View.canon_unit_zero (S := S256x4096) off00]
  simp only [View.readAt_eq_ld, harg2.read_unread, harg3.read_unread, harg4.read_unread, harg6.read_unread, View.ld_unit_zero (S := S256x4096) off00, View.ld_unit_zero (S := S512x4096) off00, View.ld_unit_zero (S := S4096x512) off00]

/-- and in the output buffer the same block: the accumulator read back after that store. -/
theorem out0_C_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i) (x0 : Vec F S256x4096 .bf16) (x1 : Vec F S512x4096 .bf16) (x2 : Vec F S4096x512 .bf16) (xs : Vec F S256x4096 .f32) :
    out0_C_3 c i arg2 harg2 arg3 harg3 arg4 harg4 arg5 harg5 arg6 harg6 hc0 hc1 x0 x1 x2 xs = k0_pay2 x0 x1 xs x2 := by
  unfold out0_C_3
  rw [View.read_writes_eq_canon _ _ _ (cover0_C_3 c i arg2 harg2 arg3 harg3 arg4 harg4 arg5 harg5 arg6 harg6 hc0 hc1 x0 x1 x2 xs)]
  unfold kernelRun0_C
  dsimp only
  sl_unfold_words
  rw [View.canon_unit_zero (S := S256x4096) off00, View.readCov_unit_zero (S := S256x4096) _ off00]
  simp only [View.readAt_eq_ld, harg2.read_unread, harg3.read_unread, harg4.read_unread, harg6.read_unread, View.ld_unit_zero (S := S256x4096) off00, View.ld_unit_zero (S := S512x4096) off00, View.ld_unit_zero (S := S4096x512) off00]

section Values

variable (V : (c : Dev nD) → (b : Ref sig .tc) → Buf (Elt F) ((c : Thread nD τ).loc b))

/-- At a first reduction step the accumulator ends at the point's partial product over the zero block. -/
theorem acc_first (c : Dev nD) (t : Fin cfg0.N) (h : t.val % 28 = 0) :
    (outsAt0 V c t.val t.isLt).2 = k0_pay2 (iblk0 V c 0 t) (iblk0 V c 1 t) (k0_pay1 (F := F)) (iblk0 V c 2 t) := by
  have h1 : ¬t.val % 28 = 27 := by omega
  rw [outsAt0_A V c t h h1]
  unfold stepA; dsimp only
  exact sout0_A_eq c (grid0.coords t) (ms0_0 t) (hs0_0 t) (ms0_1 t) (hs0_1 t) (ms0_2 t) (hs0_2 t) (ms0_3 t) (hs0_3 t) scM0 (Memref.isWhole_whole _) ((hcond0_0 t).mpr h) (fun h' => h1 ((hcond0_1 t).mp h')) (iblk0 V c 0 t) (iblk0 V c 1 t) (iblk0 V c 2 t)

/-- At any later reduction step it ends at the point's partial product over what the point before left. -/
theorem acc_step (c : Dev nD) (t : Fin cfg0.N) (h : t.val % 28 ≠ 0) :
    (outsAt0 V c t.val t.isLt).2 = k0_pay2 (iblk0 V c 0 t) (iblk0 V c 1 t) (outsAt0 V c (t.val - 1) (Nat.lt_of_le_of_lt (Nat.sub_le _ _) t.isLt)).2 (iblk0 V c 2 t) := by
  by_cases h1 : t.val % 28 = 27
  · rw [outsAt0_C V c t h h1]
    unfold stepC; dsimp only
    exact sout0_C_eq c (grid0.coords t) (ms0_0 t) (hs0_0 t) (ms0_1 t) (hs0_1 t) (ms0_2 t) (hs0_2 t) (ms0_3 t) (hs0_3 t) scM0 (Memref.isWhole_whole _) (fun h' => h ((hcond0_0 t).mp h')) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h h1]
    unfold stepB; dsimp only
    exact sout0_B_eq c (grid0.coords t) (ms0_0 t) (hs0_0 t) (ms0_1 t) (hs0_1 t) (ms0_2 t) (hs0_2 t) (ms0_3 t) (hs0_3 t) scM0 (Memref.isWhole_whole _) (fun h' => h ((hcond0_0 t).mp h')) (fun h' => h1 ((hcond0_1 t).mp h')) (iblk0 V c 0 t) (iblk0 V c 1 t) (iblk0 V c 2 t) (outsAt0 V c (t.val - 1) (Nat.lt_of_le_of_lt (Nat.sub_le _ _) t.isLt)).2

/-- At a last reduction step the output block is the accumulator's final contents. -/
theorem out_last (c : Dev nD) (t : Fin cfg0.N) (h : t.val % 28 = 27) : (outsAt0 V c t.val t.isLt).1 = (outsAt0 V c t.val t.isLt).2 := by
  have h0 : ¬t.val % 28 = 0 := by omega
  rw [outsAt0_C V c t h0 h]
  unfold stepC; dsimp only
  exact (out0_C_eq c (grid0.coords t) (ms0_0 t) (hs0_0 t) (ms0_1 t) (hs0_1 t) (ms0_2 t) (hs0_2 t) (ms0_3 t) (hs0_3 t) scM0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).trans
    (sout0_C_eq c (grid0.coords t) (ms0_0 t) (hs0_0 t) (ms0_1 t) (hs0_1 t) (ms0_2 t) (hs0_2 t) (ms0_3 t) (hs0_3 t) scM0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).symm

end Values

end Cert.KernelIdeal.Fr

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.KI.Val0.lean ====
/-
  What the feed-forward region leaves in its output array, as one function of the arrays it finds.

  The region walks a grid of 32 row blocks × 28 hidden blocks, the hidden block moving fastest. For a fixed row block
  the 256 × 4096 accumulator is zeroed at hidden block 0; every point adds, at row `p` and channel `q`, the sum over its
  512 hidden units `f` of `(max (∑ k, xk (r, k) · Wk (h, k)) 0)² · Wv (q, h)`, where `r = 256 · i + p` is the row in the
  array and `h = 512 · j + f` the hidden unit; at hidden block 27 the accumulator is copied into the output block, and
  that block is written back to rows `256 · i …` of the output array. So after point `28 · i + j` the accumulator holds
  `0 +` the block sums `0 … j`, after the last hidden block the sum over all 28 · 512 = 14336 hidden units, which is the
  feed-forward value; and the 32 written blocks cover the 8192 rows. Only commutativity and associativity of addition
  over the extended reals are used: no finiteness.
-/
import proofs.«124112_j77154792505751_2_alg».proof.Proof.KI.Val0Pay
import proofs.«124112_j77154792505751_2_alg».proof.Proof.KI.Val0Blk
import proofs.«124112_j77154792505751_2_alg».proof.Proof.KI.R0Value
import proofs.«124112_j77154792505751_2_alg».proof.Proof.LibBlockSum
import proofs.«124112_j77154792505751_2_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-! ## One hidden unit's contribution, and the block sums -/

/-- The contribution of hidden unit `n` to the feed-forward value at row `r`, channel `q` (zero past the last unit). -/
def hidden (xk : Fin 8192 → Fin 4096 → EReal) (kw : Fin 14336 → Fin 4096 → EReal) (vw : Fin 4096 → Fin 14336 → EReal)
    (r : Fin 8192) (q : Fin 4096) (n : ℕ) : EReal :=
  if h : n < 14336 then Spec.rsq (∑ k : Fin 4096, xk r k * kw ⟨n, h⟩ k) * vw q ⟨n, h⟩ else 0

/-- The feed-forward value is the sum of the contributions of the 28 · 512 hidden units. -/
theorem ffn_eq_sum_hidden (xk : Fin 8192 → Fin 4096 → EReal) (kw : Fin 14336 → Fin 4096 → EReal)
    (vw : Fin 4096 → Fin 14336 → EReal) (r : Fin 8192) (q : Fin 4096) :
    ∑ n : Fin ((27 + 1) * 512), hidden xk kw vw r q n.val = Spec.ffn xk kw vw r q := by
  show ∑ n : Fin 14336, hidden xk kw vw r q n.val = ∑ f : Fin 14336, Spec.rsq (∑ k : Fin 4096, xk r k * kw f k) * vw q f
  refine Finset.sum_congr rfl fun n _ => ?_
  unfold hidden
  rw [dif_pos n.isLt]

/-- What one grid point adds at `(p, q)`: when its blocks are rows `r` of the activations and hidden units `512 · j + f` of
    the two weight arrays, the sum over the block's hidden units of their contributions. -/
theorem blockSum_eq (x0 : Vec Ideal S256x4096 .bf16) (x1 : Vec Ideal S512x4096 .bf16) (x2 : Vec Ideal S4096x512 .bf16)
    (xk : Fin 8192 → Fin 4096 → EReal) (kw : Fin 14336 → Fin 4096 → EReal) (vw : Fin 4096 → Fin 14336 → EReal)
    (r : Fin 8192) (p : Fin 256) (q : Fin 4096) (j : ℕ) (hj : j < 28)
    (h0 : ∀ k : Fin 4096, x0 (ix2 p k) = xk r k)
    (h1 : ∀ (f : Fin 512) (k : Fin 4096) (h : Fin 14336), h.val = 512 * j + f.val → x1 (ix2 f k) = kw h k)
    (h2 : ∀ (f : Fin 512) (h : Fin 14336), h.val = 512 * j + f.val → x2 (ix2 q f) = vw q h) :
    (∑ f : Fin 512, Spec.rsq (∑ k : Fin 4096, x0 (ix2 p k) * x1 (ix2 f k)) * x2 (ix2 q f))
      = ∑ f : Fin 512, hidden xk kw vw r q (512 * j + f.val) := by
  refine Finset.sum_congr rfl fun f _ => ?_
  have hlt : 512 * j + f.val < 14336 := by have := f.isLt; omega
  unfold hidden
  rw [dif_pos hlt, h2 f ⟨512 * j + f.val, hlt⟩ rfl]
  refine congrArg (fun s => Spec.rsq s * vw q ⟨512 * j + f.val, hlt⟩) ?_
  refine Finset.sum_congr rfl fun k _ => ?_
  rw [h0 k, h1 f k ⟨512 * j + f.val, hlt⟩ rfl]

/-- The value one grid point stores: the accumulator it found plus its hidden block's sum. -/
theorem pay2_blockSum (x0 : Vec Ideal S256x4096 .bf16) (x1 : Vec Ideal S512x4096 .bf16) (a : Vec Ideal S256x4096 .f32)
    (x2 : Vec Ideal S4096x512 .bf16)
    (xk : Fin 8192 → Fin 4096 → EReal) (kw : Fin 14336 → Fin 4096 → EReal) (vw : Fin 4096 → Fin 14336 → EReal)
    (r : Fin 8192) (p : Fin 256) (q : Fin 4096) (j : ℕ) (hj : j < 28)
    (h0 : ∀ k : Fin 4096, x0 (ix2 p k) = xk r k)
    (h1 : ∀ (f : Fin 512) (k : Fin 4096) (h : Fin 14336), h.val = 512 * j + f.val → x1 (ix2 f k) = kw h k)
    (h2 : ∀ (f : Fin 512) (h : Fin 14336), h.val = 512 * j + f.val → x2 (ix2 q f) = vw q h) :
    k0_pay2 x0 x1 a x2 (ix2 p q) = a (ix2 p q) + ∑ f : Fin 512, hidden xk kw vw r q (512 * j + f.val) :=
  (pay2_apply x0 x1 a x2 p q).trans
    (congrArg (a (ix2 p q) + ·) (blockSum_eq x0 x1 x2 xk kw vw r p q j hj h0 h1 h2))

/-! ## The accumulator after each grid point -/

variable (V : (c : Dev nD) → (b : Ref sig .tc) → Buf (Elt Ideal) ((c : Thread nD τ).loc b))

/-- The activations, the key weights and the value weights as the region finds them, read as matrices. -/
abbrev XK (c : Dev nD) : Fin 8192 → Fin 4096 → EReal := Spec.mat (a := 8192) (b := 4096) (V c main_v13)
abbrev KW (c : Dev nD) : Fin 14336 → Fin 4096 → EReal := Spec.mat (a := 14336) (b := 4096) (V c main_v22)
abbrev VW (c : Dev nD) : Fin 4096 → Fin 14336 → EReal := Spec.mat (a := 4096) (b := 14336) (V c main_v23)

/-- The sum that hidden block `b` contributes at row `r`, channel `q`. -/
abbrev blockTerm (c : Dev nD) (r : Fin 8192) (q : Fin 4096) (b : ℕ) : EReal :=
  ∑ f : Fin 512, hidden (XK V c) (KW V c) (VW V c) r q (512 * b + f.val)

theorem N0 : cfg0.N = 896 := N_0

/-- What point `t` stores at `(p, q)` over the accumulator `a`, read through its three blocks. -/
theorem pointStore_eq (c : Dev nD) (t : Fin cfg0.N) (a : Vec Ideal S256x4096 .f32) (p : Fin 256) (q : Fin 4096)
    (r : Fin 8192) (hr : r.val = 256 * (t.val / 28) + p.val) :
    k0_pay2 (iblk0 V c 0 t) (iblk0 V c 1 t) a (iblk0 V c 2 t) (ix2 p q)
      = a (ix2 p q) + blockTerm V c r q (t.val % 28) :=
  pay2_blockSum (iblk0 V c 0 t) (iblk0 V c 1 t) a (iblk0 V c 2 t) (XK V c) (KW V c) (VW V c) r p q (t.val % 28)
    (Nat.mod_lt _ (by decide))
    (fun k => xkBlock_apply V c t p k r hr)
    (fun f k h hh => kwBlock_apply V c t f k h hh)
    (fun f h hh => vwBlock_apply V c t q f h hh)

/-- At the first hidden block of a row block the accumulator is zeroed and the block's sum added. -/
theorem acc_at_first (c : Dev nD) (t : Fin cfg0.N) (h : t.val % 28 = 0) (p : Fin 256) (q : Fin 4096) (r : Fin 8192)
    (hr : r.val = 256 * (t.val / 28) + p.val) :
    ((outsAt0 V c t.val t.isLt).2 (ix2 p q) : EReal) = Cert.BlockSum.acc (blockTerm V c r q) (t.val % 28) := by
  have e : Cert.BlockSum.acc (blockTerm V c r q) (t.val % 28) = 0 + blockTerm V c r q (t.val % 28) := by
    rw [h]; exact Cert.BlockSum.acc_zero _
  refine (congrFun (acc_first V c t h) (ix2 p q)).trans ?_
  refine (pointStore_eq V c t (k0_pay1 (F := Ideal)) p q r hr).trans ?_
  rw [e, pay1_apply]

/-- At a later hidden block the block's sum is added to what the point before left. -/
theorem acc_at_step (c : Dev nD) (t : Fin cfg0.N) (h : t.val % 28 ≠ 0) (p : Fin 256) (q : Fin 4096) (r : Fin 8192)
    (hr : r.val = 256 * (t.val / 28) + p.val)
    (ih : ((outsAt0 V c (t.val - 1) (Nat.lt_of_le_of_lt (Nat.sub_le _ _) t.isLt)).2 (ix2 p q) : EReal)
      = Cert.BlockSum.acc (blockTerm V c r q) ((t.val - 1) % 28)) :
    ((outsAt0 V c t.val t.isLt).2 (ix2 p q) : EReal) = Cert.BlockSum.acc (blockTerm V c r q) (t.val % 28) := by
  have e : t.val % 28 = (t.val - 1) % 28 + 1 := by omega
  have hacc : Cert.BlockSum.acc (blockTerm V c r q) (t.val % 28)
      = Cert.BlockSum.acc (blockTerm V c r q) ((t.val - 1) % 28) + blockTerm V c r q (t.val % 28) := by
    conv_lhs => rw [e]
    rw [Cert.BlockSum.acc_succ, ← e]
  refine (congrFun (acc_step V c t h) (ix2 p q)).trans ?_
  refine (pointStore_eq V c t (outsAt0 V c (t.val - 1) (Nat.lt_of_le_of_lt (Nat.sub_le _ _) t.isLt)).2 p q r hr).trans ?_
  rw [hacc, ih]

/-- THE INVARIANT: after the point at position `n` the accumulator holds, at row `p` of row block `n / 28` and channel
    `q`, zero plus the sums of the hidden blocks `0 … n % 28`. By induction on the position. -/
theorem acc_inv (c : Dev nD) : ∀ (n : ℕ) (hn : n < cfg0.N) (p : Fin 256) (q : Fin 4096) (r : Fin 8192),
    r.val = 256 * (n / 28) + p.val →
    ((outsAt0 V c n hn).2 (ix2 p q) : EReal) = Cert.BlockSum.acc (blockTerm V c r q) (n % 28)
  | 0, hn, p, q, r, hr => acc_at_first V c ⟨0, hn⟩ rfl p q r hr
  | n + 1, hn, p, q, r, hr => by
    by_cases h : (n + 1) % 28 = 0
    · exact acc_at_first V c ⟨n + 1, hn⟩ h p q r hr
    · exact acc_at_step V c ⟨n + 1, hn⟩ h p q r hr
        (acc_inv c n (Nat.lt_of_succ_lt hn) p q r (by omega))

/-- After the last hidden block of a row block the accumulator holds the feed-forward value. -/
theorem acc_at_last (c : Dev nD) (t : Fin cfg0.N) (h : t.val % 28 = 27) (p : Fin 256) (q : Fin 4096) (r : Fin 8192)
    (hr : r.val = 256 * (t.val / 28) + p.val) :
    ((outsAt0 V c t.val t.isLt).2 (ix2 p q) : EReal) = Spec.ffn (XK V c) (KW V c) (VW V c) r q := by
  refine (acc_inv V c t.val t.isLt p q r hr).trans ?_
  rw [h]
  exact (Cert.BlockSum.acc_last_blocks 27 512 (hidden (XK V c) (KW V c) (VW V c) r q)).trans
    (ffn_eq_sum_hidden (XK V c) (KW V c) (VW V c) r q)

/-! ## From the written blocks to the array -/

/-- What the output array ends holding. -/
abbrev result (c : Dev nD) : S8192x4096.Idx → EReal := Spec.arr (Spec.ffn (XK V c) (KW V c) (VW V c))

/-- A point that writes back (hidden block 27) writes its row block of the feed-forward value. -/
theorem flushed0_eq (c : Dev nD) (t : Fin cfg0.N) (hf : (cfg0.win 3).flush t = true) :
    (dat0 V c).flushed 3 t = ((cfg0.win 3).blk t).view.read (Elt Ideal) (result V c) := by
  have h27 : t.val % 28 = 27 := (flush0_3 t).mp hf
  have hN : t.val < 896 := lt_of_lt_of_eq t.isLt N0
  obtain ⟨-, -, -, -, -, -, e0, e1⟩ := blockIndex t
  show (cfg0.win 3).cut (grid0.coords t) ((dat0 V c).after 3 t) = _
  rw [after0_3, out_last V c t h27]
  refine funext fun (y : S256x4096.Idx) => ?_
  obtain ⟨p, q, rfl⟩ : ∃ (p : Fin 256) (q : Fin 4096), y = ix2 p q := ⟨y 0, y 1, eq_ix2 y⟩
  have he : ((cfg0.win 3).blk t).view.emb (ix2 p q)
      = ix2 (⟨256 * (t.val / 28) + p.val, by have := p.isLt; omega⟩ : Fin 8192) q := by
    funext a
    apply Fin.ext
    match a with
    | ⟨0, _⟩ => show win0_3.index t (0 : Fin 2) * 256 + 1 * p.val = 256 * (t.val / 28) + p.val; omega
    | ⟨1, _⟩ => show win0_3.index t (1 : Fin 2) * 4096 + 1 * q.val = q.val; omega
  show (outsAt0 V c t.val t.isLt).2 (ix2 p q) = result V c (((cfg0.win 3).blk t).view.emb (ix2 p q))
  rw [he]
  exact acc_at_last V c t h27 p q _ rfl

/-- An index of the output array is in point `t`'s block iff each coordinate is in the block's range on its axis. -/
theorem mem_blk0 (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v25).slice (win0_3.rect t)).set ↔ _
  rw [View.set_slice_whole, Rect.mem_set_unit]
  exact Iff.rfl

/-- Every row of the output array is in the block that the last hidden point of its row block writes back. -/
theorem cover0 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have ht : 28 * ((i 0).val / 256) + 27 < cfg0.N := by rw [N0]; omega
  refine ⟨⟨28 * ((i 0).val / 256) + 27, ht⟩, (flush0_3 _).mpr (by show (28 * ((i 0).val / 256) + 27) % 28 = 27; omega), ?_⟩
  obtain ⟨-, -, -, -, -, -, e0, e1⟩ := blockIndex ⟨28 * ((i 0).val / 256) + 27, ht⟩
  have e0' : win0_3.index ⟨28 * ((i 0).val / 256) + 27, ht⟩ (0 : Fin 2) = (i 0).val / 256 := by
    rw [e0]; show (28 * ((i 0).val / 256) + 27) / 28 = (i 0).val / 256; omega
  rw [mem_blk0]
  intro a
  match a with
  | ⟨0, _⟩ =>
    show win0_3.index ⟨28 * ((i 0).val / 256) + 27, ht⟩ (0 : Fin 2) * 256 ≤ (i 0).val
      ∧ (i 0).val < win0_3.index ⟨28 * ((i 0).val / 256) + 27, ht⟩ (0 : Fin 2) * 256 + 256
    rw [e0']; omega
  | ⟨1, _⟩ =>
    show win0_3.index ⟨28 * ((i 0).val / 256) + 27, ht⟩ (1 : Fin 2) * 4096 ≤ (i 1).val
      ∧ (i 1).val < win0_3.index ⟨28 * ((i 0).val / 256) + 27, ht⟩ (1 : Fin 2) * 4096 + 4096
    rw [e1]; omega

/-- THE ARRAY after the region: the feed-forward value of the three arrays the region found. -/
theorem final0 (c : Dev nD) :
    (dat0 (F := Ideal) V c).arrAt 3 cfg0.N
      = Spec.arr (Spec.ffn (Spec.mat (V c main_v13)) (Spec.mat (V c main_v22)) (Spec.mat (V c main_v23))) :=
  (dat0 V c).arrAt_eq_of_cover 3 (result V c) (fun t hf => flushed0_eq V c t hf) cover0

end Cert.KernelIdeal.Val

end
-- ==== Proof.KI.Val1Pay.lean ====
/-
  The gate kernel's block function, read at one element.

  For a 256 x 4096 block x0, a 1024 x 4096 block x1 and a 256 x 1024 block x2 the body stores
  the block whose element (p, q) is
      logistic (∑ k, x0 (p, k) · x1 (q, k)) · x2 (p, q):
  the matrix product contracts the last axis of both factors, it is accumulated into a zero block,
  the three shape casts are onto the same shape, and the remaining operations act element by element.
-/
import proofs.«124112_j77154792505751_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## The operand indices of the product, coordinate by coordinate -/

/-- The left factor's row is the output's row. -/
theorem gate_lhs_row (j : S256x1024.Idx) (kk : dot_S256x4096_S1024x4096_S256x1024_1_1_0_0_n_n.contr.Idx) :
    (dot_S256x4096_S1024x4096_S256x1024_1_1_0_0_n_n.lhsIdx j kk 0).val = (j 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl

/-- The left factor's column is the contraction coordinate. -/
theorem gate_lhs_col (j : S256x1024.Idx) (kk : dot_S256x4096_S1024x4096_S256x1024_1_1_0_0_n_n.contr.Idx) :
    (dot_S256x4096_S1024x4096_S256x1024_1_1_0_0_n_n.lhsIdx j kk 1).val = (kk ⟨0, by decide⟩).val :=
  dot_S256x4096_S1024x4096_S256x1024_1_1_0_0_n_n.lhsIdx_val_of_single rfl j kk

/-- The right factor's row is the output's column: the product is with the transposed block. -/
theorem gate_rhs_row (j : S256x1024.Idx) (kk : dot_S256x4096_S1024x4096_S256x1024_1_1_0_0_n_n.contr.Idx) :
    (dot_S256x4096_S1024x4096_S256x1024_1_1_0_0_n_n.rhsIdx j kk 0).val = (j 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl

/-- The right factor's column is the contraction coordinate. -/
theorem gate_rhs_col (j : S256x1024.Idx) (kk : dot_S256x4096_S1024x4096_S256x1024_1_1_0_0_n_n.contr.Idx) :
    (dot_S256x4096_S1024x4096_S256x1024_1_1_0_0_n_n.rhsIdx j kk 1).val = (kk ⟨0, by decide⟩).val :=
  dot_S256x4096_S1024x4096_S256x1024_1_1_0_0_n_n.rhsIdx_val_of_single rfl j kk

/-! ## The product at an element -/

/-- The product into the zero block, at element `(p, q)`: the sum over the 4096 contraction coordinates of
    left `(p, k)` times right `(q, k)`. -/
theorem gate_matmul_apply (y0 : FVec Ideal S256x4096 .bf16) (y1 : FVec Ideal S1024x4096 .bf16) (p : Fin 256) (q : Fin 1024) :
    FloatOps.matmul dot_S256x4096_S1024x4096_S256x1024_1_1_0_0_n_n none y0 y1 (constant (F := Ideal) S256x1024 .f32 0x00000000#32) (ix2 p q)
      = ∑ k : Fin 4096, y0 (ix2 p k) * y1 (ix2 q k) := by
  rw [Ideal.matmul_constant_zero_apply,
    ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q)
      ((contrEquiv1 dot_S256x4096_S1024x4096_S256x1024_1_1_0_0_n_n 4096 rfl rfl).symm k) = (ix2 p k : S256x4096.Idx) :=
    funext fun a => Fin.ext (by
      match a with
      | ⟨0, _⟩ => exact gate_lhs_row _ _
      | ⟨1, _⟩ => exact (gate_lhs_col _ _).trans hk)
  have er : dot_S256x4096_S1024x4096_S256x1024_1_1_0_0_n_n.rhsIdx (ix2 p q)
      ((contrEquiv1 dot_S256x4096_S1024x4096_S256x1024_1_1_0_0_n_n 4096 rfl rfl).symm k) = (ix2 q k : S1024x4096.Idx) :=
    funext fun a => Fin.ext (by
      match a with
      | ⟨0, _⟩ => exact gate_rhs_row _ _
      | ⟨1, _⟩ => exact (gate_rhs_col _ _).trans hk)
  rw [el, er]

/-- THE BLOCK FUNCTION AT AN ELEMENT. -/
theorem gate_apply (x0 : Vec Ideal S256x4096 .bf16) (x1 : Vec Ideal S1024x4096 .bf16) (x2 : Vec Ideal S256x1024 .f32)
    (p : Fin 256) (q : Fin 1024) :
    k1_pay1 x0 x1 x2 (ix2 p q)
      = Ideal.logistic (∑ k : Fin 4096, x0 (ix2 p k) * x1 (ix2 q k)) * x2 (ix2 p q) := by
  unfold k1_pay1
  simp only [shapeCast_self]
  show Ideal.logistic (FloatOps.matmul (F := Ideal) dot_S256x4096_S1024x4096_S256x1024_1_1_0_0_n_n none x0 x1
      (constant (F := Ideal) S256x1024 .f32 0x00000000#32) (ix2 p q)) * x2 (ix2 p q) = _
  rw [gate_matmul_apply]

end Cert.KernelIdeal.Val

end
-- ==== Proof.KI.Val1.lean ====
/-
  What the gate kernel leaves in its output array, as one function of the arrays it finds.

  The grid is 32 x 4: point t works on row block t / 4 (256 rows) and column block t % 4 (1024 columns).
  Its three input blocks are rows 256·(t/4) … of the first array (all 4096 columns), rows 1024·(t%4) … of the
  second (all 4096 columns), and the 256 x 1024 block at (t/4, t%4) of the third.  The block it writes back is
  the block at (t/4, t%4) of
      out (r, c) = logistic (∑ k, A (r, k) · B (c, k)) · C (r, c),
  and the 128 blocks tile the 8192 x 4096 array: element (r, c) lies in the block of point 4·(r/256) + c/1024.
-/
import proofs.«124112_j77154792505751_2_alg».proof.Proof.KI.R1Frame
import proofs.«124112_j77154792505751_2_alg».proof.Proof.KI.Val1Pay
import proofs.«124112_j77154792505751_2_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The grid's arithmetic -/

/-- The grid has 128 points. -/
theorem npoints1 : cfg1.N = 128 := N_1

/-- Row `p` of the row block of point `t`, as a row of the whole array. -/
def rowAt (t : Fin cfg1.N) (p : Fin 256) : Fin 8192 :=
  ⟨256 * (t.val / 4) + p.val, by have h : t.val < 128 := lt_of_lt_of_eq t.isLt npoints1; omega⟩

/-- Column `q` of the column block of point `t`, as a column of the whole array. -/
def colAt (t : Fin cfg1.N) (q : Fin 1024) : Fin 4096 :=
  ⟨1024 * (t.val % 4) + q.val, by omega⟩

/-- The printed index maps, decided over the grid: the block indices of the four windows at point `t`. -/
theorem blockIdx1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4
    ∧ win1_3.index t (0 : Fin 2) = t.val / 4 ∧ win1_3.index t (1 : Fin 2) = t.val % 4 :=
  (by decide +kernel : ∀ t : Fin grid1.N, _)

/-! ## The input blocks, read off the arrays -/

/-- The first input block at point `t`: 256 rows of the first array from row 256·(t/4), every column. -/
theorem lhsBlock_apply (c : Dev nD) (t : Fin cfg1.N) (p : Fin 256) (k : Fin 4096) :
    (iblk1 V c 0 t : Vec Ideal S256x4096 .bf16) (ix2 p k)
      = (V c main_v21 : S8192x4096.Idx → EReal) (ix2 (rowAt t p) k) := by
  obtain ⟨e0, e1, -⟩ := blockIdx1 t
  unfold iblk1
  rw [View.read_apply]
  show (V c main_v21 : S8192x4096.Idx → EReal) (((cfg1.win 0).blk t).view.emb (ix2 p k)) = _
  congr 1
  funext a
  apply Fin.ext
  match a with
  | ⟨0, _⟩ => show win1_0.index t (0 : Fin 2) * 256 + 1 * p.val = 256 * (t.val / 4) + p.val; rw [e0]; omega
  | ⟨1, _⟩ => show win1_0.index t (1 : Fin 2) * 4096 + 1 * k.val = k.val; rw [e1]; omega

/-- The second input block at point `t`: 1024 rows of the second array from row 1024·(t%4), every column. -/
theorem rhsBlock_apply (c : Dev nD) (t : Fin cfg1.N) (q : Fin 1024) (k : Fin 4096) :
    (iblk1 V c 1 t : Vec Ideal S1024x4096 .bf16) (ix2 q k)
      = (V c main_v24 : S4096x4096.Idx → EReal) (ix2 (colAt t q) k) := by
  obtain ⟨-, -, e0, e1, -⟩ := blockIdx1 t
  unfold iblk1
  rw [View.read_apply]
  show (V c main_v24 : S4096x4096.Idx → EReal) (((cfg1.win 1).blk t).view.emb (ix2 q k)) = _
  congr 1
  funext a
  apply Fin.ext
  match a with
  | ⟨0, _⟩ => show win1_1.index t (0 : Fin 2) * 1024 + 1 * q.val = 1024 * (t.val % 4) + q.val; rw [e0]; omega
  | ⟨1, _⟩ => show win1_1.index t (1 : Fin 2) * 4096 + 1 * k.val = k.val; rw [e1]; omega

/-- The third input block at point `t`: the 256 x 1024 block at (t/4, t%4) of the third array. -/
theorem kvBlock_apply (c : Dev nD) (t : Fin cfg1.N) (p : Fin 256) (q : Fin 1024) :
    (iblk1 V c 2 t : Vec Ideal S256x1024 .f32) (ix2 p q)
      = (V c main_v25 : S8192x4096.Idx → EReal) (ix2 (rowAt t p) (colAt t q)) := by
  obtain ⟨-, -, -, -, e0, e1, -⟩ := blockIdx1 t
  unfold iblk1
  rw [View.read_apply]
  show (V c main_v25 : S8192x4096.Idx → EReal) (((cfg1.win 2).blk t).view.emb (ix2 p q)) = _
  congr 1
  funext a
  apply Fin.ext
  match a with
  | ⟨0, _⟩ => show win1_2.index t (0 : Fin 2) * 256 + 1 * p.val = 256 * (t.val / 4) + p.val; rw [e0]; omega
  | ⟨1, _⟩ => show win1_2.index t (1 : Fin 2) * 1024 + 1 * q.val = 1024 * (t.val % 4) + q.val; rw [e1]; omega

/-! ## The whole-array function, and what a point writes back -/

/-- The gated output as an array, from the three arrays the region finds. -/
abbrev gateArr (c : Dev nD) : S8192x4096.Idx → EReal :=
  Spec.arr (Spec.gate (Spec.mat (a := 8192) (b := 4096) (V c main_v21)) (Spec.mat (a := 4096) (b := 4096) (V c main_v24))
    (Spec.mat (a := 8192) (b := 4096) (V c main_v25)))

/-- The block function of blocks that are the arrays' blocks at point `t` is the whole-array function's
    block at `t`, element by element. -/
theorem gate_block (c : Dev nD) (t : Fin cfg1.N)
    (x0 : Vec Ideal S256x4096 .bf16) (x1 : Vec Ideal S1024x4096 .bf16) (x2 : Vec Ideal S256x1024 .f32)
    (h0 : ∀ (p : Fin 256) (k : Fin 4096), x0 (ix2 p k) = (V c main_v21 : S8192x4096.Idx → EReal) (ix2 (rowAt t p) k))
    (h1 : ∀ (q : Fin 1024) (k : Fin 4096), x1 (ix2 q k) = (V c main_v24 : S4096x4096.Idx → EReal) (ix2 (colAt t q) k))
    (h2 : ∀ (p : Fin 256) (q : Fin 1024), x2 (ix2 p q) = (V c main_v25 : S8192x4096.Idx → EReal) (ix2 (rowAt t p) (colAt t q)))
    (p : Fin 256) (q : Fin 1024) :
    k1_pay1 x0 x1 x2 (ix2 p q) = gateArr V c (ix2 (rowAt t p) (colAt t q)) := by
  rw [gate_apply, h2]
  show _ = Spec.gate _ _ _ (rowAt t p) (colAt t q)
  unfold Spec.gate Spec.mat
  simp only [h0, h1]

/-- WHAT POINT `t` WRITES BACK is block `t` of the whole-array function. -/
theorem flushed1_eq (c : Dev nD) (t : Fin cfg1.N) :
    (dat1 V c).flushed 3 t = ((cfg1.win 3).blk t).view.read (Elt Ideal) (gateArr V c) := by
  show (cfg1.win 3).cut (grid1.coords t) ((dat1 V c).after 3 t) = _
  rw [after1_3, out1_3_eq]
  obtain ⟨-, -, -, -, -, -, e0, e1⟩ := blockIdx1 t
  refine funext fun (j : S256x1024.Idx) => ?_
  obtain ⟨p, q, rfl⟩ : ∃ (p : Fin 256) (q : Fin 1024), j = ix2 p q := ⟨j 0, j 1, eq_ix2 j⟩
  rw [View.read_apply]
  have he : ((cfg1.win 3).blk t).view.emb (ix2 p q) = (ix2 (rowAt t p) (colAt t q) : S8192x4096.Idx) := by
    funext a
    apply Fin.ext
    match a with
    | ⟨0, _⟩ => show win1_3.index t (0 : Fin 2) * 256 + 1 * p.val = 256 * (t.val / 4) + p.val; rw [e0]; omega
    | ⟨1, _⟩ => show win1_3.index t (1 : Fin 2) * 1024 + 1 * q.val = 1024 * (t.val % 4) + q.val; rw [e1]; omega
  show k1_pay1 (iblk1 V c 0 t) (iblk1 V c 1 t) (iblk1 V c 2 t) (ix2 p q) = gateArr V c (((cfg1.win 3).blk t).view.emb (ix2 p q))
  rw [he]
  exact gate_block V c t (iblk1 V c 0 t) (iblk1 V c 1 t) (iblk1 V c 2 t)
    (lhsBlock_apply V c t) (rhsBlock_apply V c t) (kvBlock_apply V c t) p q

/-! ## The blocks tile the array -/

/-- An element of the array is in point `t`'s output block iff each coordinate is in the block's range. -/
theorem mem_outBlock (t : Fin cfg1.N) (i : S8192x4096.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v26).slice (win1_3.rect t)).set ↔ _
  rw [View.set_slice_whole, Rect.mem_set_unit]
  exact Iff.rfl

/-- Element (r, c) lies in the block of point 4·(r/256) + c/1024, and every point writes back. -/
theorem outBlocks_cover (i : S8192x4096.Idx) :
    ∃ t : Fin cfg1.N, (cfg1.win 3).flush t = true ∧ i ∈ ((cfg1.win 3).blk t).view.set := by
  have hr : (i 0).val < 8192 := (i 0).isLt
  have hc : (i 1).val < 4096 := (i 1).isLt
  have hN : cfg1.N = 128 := npoints1
  have hv : ∀ t : Fin cfg1.N, t.val = 4 * ((i 0).val / 256) + (i 1).val / 1024 →
      i ∈ ((cfg1.win 3).blk t).view.set := by
    intro t ht
    obtain ⟨-, -, -, -, -, -, e0, e1⟩ := blockIdx1 t
    rw [mem_outBlock]
    intro a
    match a with
    | ⟨0, _⟩ =>
      show win1_3.index t (0 : Fin 2) * 256 ≤ (i 0).val ∧ (i 0).val < win1_3.index t (0 : Fin 2) * 256 + 256
      rw [e0]; omega
    | ⟨1, _⟩ =>
      show win1_3.index t (1 : Fin 2) * 1024 ≤ (i 1).val ∧ (i 1).val < win1_3.index t (1 : Fin 2) * 1024 + 1024
      rw [e1]; omega
  exact ⟨⟨4 * ((i 0).val / 256) + (i 1).val / 1024, by omega⟩, flush1_3 _, hv _ rfl⟩

/-! ## The array after the region -/

/-- THE OUTPUT ARRAY after the gate kernel's 128 points: the gated output of the three arrays the region finds. -/
theorem final1 (c : Dev nD) :
    (dat1 (F := Ideal) V c).arrAt 3 cfg1.N
      = Spec.arr (Spec.gate (Spec.mat (a := 8192) (b := 4096) (V c main_v21)) (Spec.mat (a := 4096) (b := 4096) (V c main_v24))
          (Spec.mat (a := 8192) (b := 4096) (V c main_v25))) :=
  (dat1 V c).arrAt_eq_of_cover 3 (gateArr V c) (fun t _ => flushed1_eq V c t) outBlocks_cover

end Cert.KernelIdeal.Val

end
-- ==== Proof.Target.lean ====
/-
  The whole computation as ONE function of the seven argument arrays, read at an entry (b, t, c) of the
  [4, 2048, 4096] result: with xx the sequence shifted by one step (its first step taken from the carried state),
    xk = xx · μk + x · (1 - μk),   xr = xx · μr + x · (1 - μr)          (per channel),
    result (b, t, c) = logistic (∑ k, xr (b, t, k) · Wr (c, k)) · ∑ f, (max (∑ k, xk (b, t, k) · Wk (f, k)) 0)² · Wv (c, f).
  The shifted sequence is a parameter: both programs build it by the same two operations, which are never opened.
-/
import proofs.«124112_j77154792505751_2_alg».proof.Proof.Spec

noncomputable section

namespace Cert.Spec

open Idealize.ShloMosaic Idealize.ShloMosaic.ValueIdx

/-- The word of the float literal 1.0 (kept as its pattern: the same word stands on both sides). -/
abbrev one : EReal := Ideal.ofBits .f32 0x3F800000#32

/-- The interpolation of a value with the one a step before it. -/
def mix (xx x μ : EReal) : EReal := xx * μ + x * (one - μ)

/-- The result at batch `b`, step `t`, channel `c`. -/
def resultAt (xx x : (⟨3, ![4, 2048, 4096]⟩ : Shape).Idx → EReal) (μk μr : (⟨3, ![1, 1, 4096]⟩ : Shape).Idx → EReal)
    (kw : (⟨2, ![14336, 4096]⟩ : Shape).Idx → EReal) (rw : (⟨2, ![4096, 4096]⟩ : Shape).Idx → EReal)
    (vw : (⟨2, ![4096, 14336]⟩ : Shape).Idx → EReal) (b : Fin 4) (t : Fin 2048) (c : Fin 4096) : EReal :=
  Ideal.logistic (∑ k : Fin 4096, mix (xx (ix3 b t k)) (x (ix3 b t k)) (μr (ix3 (0 : Fin 1) (0 : Fin 1) k)) * rw (ix2 c k))
    * ∑ f : Fin 14336, rsq (∑ k : Fin 4096, mix (xx (ix3 b t k)) (x (ix3 b t k)) (μk (ix3 (0 : Fin 1) (0 : Fin 1) k)) * kw (ix2 f k))
        * vw (ix2 c f)

/-- The result array. -/
def result (xx x : (⟨3, ![4, 2048, 4096]⟩ : Shape).Idx → EReal) (μk μr : (⟨3, ![1, 1, 4096]⟩ : Shape).Idx → EReal)
    (kw : (⟨2, ![14336, 4096]⟩ : Shape).Idx → EReal) (rw : (⟨2, ![4096, 4096]⟩ : Shape).Idx → EReal)
    (vw : (⟨2, ![4096, 14336]⟩ : Shape).Idx → EReal) : (⟨3, ![4, 2048, 4096]⟩ : Shape).Idx → EReal :=
  fun i => resultAt xx x μk μr kw rw vw (i 0) (i 1) (i 2)

theorem result_ix3 (xx x : (⟨3, ![4, 2048, 4096]⟩ : Shape).Idx → EReal) (μk μr : (⟨3, ![1, 1, 4096]⟩ : Shape).Idx → EReal)
    (kw : (⟨2, ![14336, 4096]⟩ : Shape).Idx → EReal) (rw : (⟨2, ![4096, 4096]⟩ : Shape).Idx → EReal)
    (vw : (⟨2, ![4096, 14336]⟩ : Shape).Idx → EReal) (b : Fin 4) (t : Fin 2048) (c : Fin 4096) :
    result xx x μk μr kw rw vw (ix3 b t c) = resultAt xx x μk μr kw rw vw b t c := rfl

/-- The literal 1.0 is the number one. -/
theorem one_eq : one = 1 := by
  show Ideal.ofBits .f32 0x3F800000#32 = 1
  simp [Ideal.ofBits, Ideal.ieee, -EReal.coe_mul]; norm_num

/-- The row of the flattened [8192, 4096] matrix that holds step `t` of batch `b`. -/
def row (b : Fin 4) (t : Fin 2048) : Fin 8192 := ⟨2048 * b.val + t.val, by have := b.isLt; have := t.isLt; omega⟩

end Cert.Spec

end
-- ==== Proof.KI.HostIn.lean ====
/-
  What the host lines before the first kernel leave in the kernels' input arrays, as functions of the argument arrays:
  the two interpolated inputs `xx · μ + x · (1 - μ)` laid out as [8192, 4096] matrices (row 2048 · b + t holds step t of
  batch b), and the three weight matrices unchanged (a change of float format is the identity on extended reals).
  The shifted sequence `xx` is the concatenation of the carried state with all but the last step; it is named, never opened.
-/
import proofs.«124112_j77154792505751_2_alg».proof.Proof.Gen.KernelIdeal.Launch
import proofs.«124112_j77154792505751_2_alg».proof.Proof.Target
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem
  Idealize.ShloMosaic.StableHlo Idealize.ShloMosaic.ValueIdx

/-! ## The layout operations read at an entry -/

/-- A [4, 2048, 4096] array flattened to [8192, 4096]: row `2048 · b + t` is step `t` of batch `b`. -/
theorem flat_apply {α : Type} (x : S4x2048x4096.Idx → α) (h : S4x2048x4096.ShapeCasts S8192x4096)
    (b : Fin 4) (t : Fin 2048) (k : Fin 4096) :
    shapeCast S8192x4096 x h (ix2 (Spec.row b t) k) = x (ix3 b t k) :=
  shapeCast_apply x h _ _ (by
    rw [Shape.rowMajor_val_three, Shape.rowMajor_val_two]
    show (b.val * 2048 + t.val) * 4096 + k.val = (2048 * b.val + t.val) * 4096 + k.val
    rw [Nat.mul_comm b.val 2048])

/-- And back. -/
theorem unflat_apply {α : Type} (y : S8192x4096.Idx → α) (h : S8192x4096.ShapeCasts S4x2048x4096)
    (b : Fin 4) (t : Fin 2048) (k : Fin 4096) :
    shapeCast S4x2048x4096 y h (ix3 b t k) = y (ix2 (Spec.row b t) k) :=
  shapeCast_apply y h _ _ (by
    rw [Shape.rowMajor_val_three, Shape.rowMajor_val_two]
    show (2048 * b.val + t.val) * 4096 + k.val = (b.val * 2048 + t.val) * 4096 + k.val
    rw [Nat.mul_comm b.val 2048])

/-- A per-channel vector [1, 1, 4096] read as a row [1, 4096]. -/
theorem vec_apply {α : Type} (μ : S1x1x4096.Idx → α) (h : S1x1x4096.ShapeCasts S1x4096) (u : Fin 1) (k : Fin 4096) :
    shapeCast S1x4096 μ h (ix2 u k) = μ (ix3 (0 : Fin 1) (0 : Fin 1) k) := by
  obtain rfl : u = 0 := Subsingleton.elim _ _
  exact shapeCast_1ab_ab_apply μ h (0 : Fin 1) k

/-- A row [1, 4096] repeated down the 8192 rows. -/
theorem rows_apply {α : Type} (v : S1x4096.Idx → α) (h : S1x4096.BroadcastsInDim S8192x4096 (![0, 1] : Fin 2 → Fin S8192x4096.rank))
    (r : Fin 8192) (k : Fin 4096) :
    broadcastInDim S8192x4096 ![0, 1] h v (ix2 r k) = v (ix2 (0 : Fin 1) k) :=
  broadcastInDim_apply _ h v _ _ (fun a => match a with
    | ⟨0, _⟩ => by show 0 = if (1 : Nat) = 1 then 0 else r.val; rw [if_pos rfl]
    | ⟨1, _⟩ => by show k.val = if (4096 : Nat) = 1 then 0 else k.val; rw [if_neg (by decide)])

/-- A scalar repeated along a row. -/
theorem splat_apply {α : Type} (s : S_.Idx → α) (h : S_.BroadcastsInDim S1x4096 (![] : Fin 0 → Fin S1x4096.rank)) (j : S1x4096.Idx) :
    broadcastInDim S1x4096 ![] h s j = s ix0 :=
  broadcastInDim_apply _ h s j ix0 (fun a => a.elim0)

/-! ## The kernels' inputs -/

variable [Cert.KernelIdeal.Facts]

/-- The sequence shifted by one step: the carried state, then all steps but the last. -/
def shifted (x : (⟨S4x2048x4096, .f32⟩ : BufTy).Contents (Elt Ideal)) (s : (⟨S4x1x4096, .f32⟩ : BufTy).Contents (Elt Ideal)) :
    (⟨S4x2048x4096, .f32⟩ : BufTy).Contents (Elt Ideal) :=
  concatenate S4x2048x4096 1 [⟨S4x1x4096, s⟩, ⟨S4x2047x4096, extractStridedSlice S4x2047x4096 ![0, 0, 0] x Facts₀.slices_S4x2048x4096_S4x2047x4096_0_0_0⟩]
    Facts₀.concatenates_S4x1x4096_S4x2047x4096_S4x2048x4096_d1

/-- The interpolation of the sequence with its shift, per channel, flattened to a matrix and narrowed. -/
def mixed (xx x : (⟨S4x2048x4096, .f32⟩ : BufTy).Contents (Elt Ideal)) (μ : (⟨S1x1x4096, .f32⟩ : BufTy).Contents (Elt Ideal)) :
    (⟨S8192x4096, .bf16⟩ : BufTy).Contents (Elt Ideal) :=
  truncf .bf16
    (addf
      (mulf (shapeCast S8192x4096 xx Facts₀.shapeCasts_S4x2048x4096_S8192x4096)
        (broadcastInDim S8192x4096 ![0, 1] Facts₀.bcast_S1x4096_S8192x4096_0_1 (shapeCast S1x4096 μ Facts₀.shapeCasts_S1x1x4096_S1x4096)))
      (mulf (shapeCast S8192x4096 x Facts₀.shapeCasts_S4x2048x4096_S8192x4096)
        (broadcastInDim S8192x4096 ![0, 1] Facts₀.bcast_S1x4096_S8192x4096_0_1
          (subf (broadcastInDim S1x4096 ![] Facts₀.bcast_S_S1x4096 (constant (F := Ideal) S_ .f32 0x3F800000#32))
            (shapeCast S1x4096 μ Facts₀.shapeCasts_S1x1x4096_S1x4096)))))
    Facts₀.bitsLt_bf16_f32

/-- A weight matrix narrowed to the kernels' operand format: the same numbers. -/
def narrowed {s : Shape} (a : (⟨s, .f32⟩ : BufTy).Contents (Elt Ideal)) : (⟨s, .bf16⟩ : BufTy).Contents (Elt Ideal) :=
  truncf (F := Ideal) (s := s) (φ := .f32) .bf16 a Facts₀.bitsLt_bf16_f32

theorem narrowed_apply {s : Shape} (a : (⟨s, .f32⟩ : BufTy).Contents (Elt Ideal)) (i : s.Idx) : narrowed a i = a i := rfl

/-- The interpolated matrix at row `2048 · b + t`, column `k`. -/
theorem mixed_apply (xx x : (⟨S4x2048x4096, .f32⟩ : BufTy).Contents (Elt Ideal)) (μ : (⟨S1x1x4096, .f32⟩ : BufTy).Contents (Elt Ideal))
    (b : Fin 4) (t : Fin 2048) (k : Fin 4096) :
    mixed xx x μ (ix2 (Spec.row b t) k) = Spec.mix (xx (ix3 b t k)) (x (ix3 b t k)) (μ (ix3 (0 : Fin 1) (0 : Fin 1) k)) := by
  unfold mixed Spec.mix
  rw [truncf_apply, addf_apply, mulf_apply, mulf_apply, flat_apply, flat_apply, rows_apply, rows_apply, subf_apply, vec_apply,
    splat_apply]
  rfl

variable (m : (ℓ : Loc nD τ sig) → Buf (Elt Ideal) ℓ) (c : Dev nD)

set_option maxHeartbeats 4000000 in
/-- The key input matrix. -/
theorem in_v13 : StableHlo.after (hostOps0 (F := Ideal)) (fun b => m (c, b)) (Proc.devRef .tc main_v13)
    = mixed (shifted (m (c, Proc.devRef .tc main_arg0)) (m (c, Proc.devRef .tc main_arg1))) (m (c, Proc.devRef .tc main_arg0)) (m (c, Proc.devRef .tc main_arg2)) := by
  after_results; rfl

set_option maxHeartbeats 4000000 in
/-- The receptance input matrix. -/
theorem in_v21 : StableHlo.after (hostOps0 (F := Ideal)) (fun b => m (c, b)) (Proc.devRef .tc main_v21)
    = mixed (shifted (m (c, Proc.devRef .tc main_arg0)) (m (c, Proc.devRef .tc main_arg1))) (m (c, Proc.devRef .tc main_arg0)) (m (c, Proc.devRef .tc main_arg3)) := by
  after_results; rfl

set_option maxHeartbeats 4000000 in
/-- The key weights. -/
theorem in_v22 : StableHlo.after (hostOps0 (F := Ideal)) (fun b => m (c, b)) (Proc.devRef .tc main_v22)
    = narrowed (s := S14336x4096) (m (c, Proc.devRef .tc main_arg4)) := by
  after_results; rfl

set_option maxHeartbeats 4000000 in
/-- The value weights. -/
theorem in_v23 : StableHlo.after (hostOps0 (F := Ideal)) (fun b => m (c, b)) (Proc.devRef .tc main_v23)
    = narrowed (s := S4096x14336) (m (c, Proc.devRef .tc main_arg6)) := by
  after_results; rfl

set_option maxHeartbeats 4000000 in
/-- The receptance weights. -/
theorem in_v24 : StableHlo.after (hostOps0 (F := Ideal)) (fun b => m (c, b)) (Proc.devRef .tc main_v24)
    = narrowed (s := S4096x4096) (m (c, Proc.devRef .tc main_arg5)) := by
  after_results; rfl

/-- The argument array the second result is cut from is untouched by the host lines. -/
theorem in_arg0 : StableHlo.after (hostOps0 (F := Ideal)) (fun b => m (c, b)) (Proc.devRef .tc main_arg0) = m (c, Proc.devRef .tc main_arg0) := by
  after_results

end Cert.KernelIdeal.Val

end
-- ==== Proof.KI.Bridge.lean ====
/-
  The two kernels composed: the gate kernel's output matrix, computed from the two interpolated input matrices, the
  three weight matrices and the feed-forward kernel's output matrix, and reshaped to [4, 2048, 4096], is the target
  function of the argument arrays. Row `2048 · b + t` of every matrix is step `t` of batch `b`.
-/
import proofs.«124112_j77154792505751_2_alg».proof.Proof.KI.HostIn

noncomputable section

namespace Cert.KernelIdeal.Val

open Cert.KernelIdeal Cert.KernelIdeal.Gen Idealize.ShloMosaic Idealize.ShloMosaic.ValueIdx

variable [Cert.KernelIdeal.Facts]

/-- What the feed-forward kernel leaves, as a function of its three input matrices. -/
def ffnOut (xk : (⟨S8192x4096, .bf16⟩ : BufTy).Contents (Elt Ideal)) (kw : (⟨S14336x4096, .bf16⟩ : BufTy).Contents (Elt Ideal))
    (vw : (⟨S4096x14336, .bf16⟩ : BufTy).Contents (Elt Ideal)) : (⟨S8192x4096, .f32⟩ : BufTy).Contents (Elt Ideal) :=
  Spec.arr (Spec.ffn (Spec.mat (a := 8192) (b := 4096) xk) (Spec.mat (a := 14336) (b := 4096) kw) (Spec.mat (a := 4096) (b := 14336) vw))

/-- What the gate kernel leaves, as a function of its three input matrices. -/
def gateOut (xr : (⟨S8192x4096, .bf16⟩ : BufTy).Contents (Elt Ideal)) (rw : (⟨S4096x4096, .bf16⟩ : BufTy).Contents (Elt Ideal))
    (kv : (⟨S8192x4096, .f32⟩ : BufTy).Contents (Elt Ideal)) : (⟨S8192x4096, .f32⟩ : BufTy).Contents (Elt Ideal) :=
  Spec.arr (Spec.gate (Spec.mat (a := 8192) (b := 4096) xr) (Spec.mat (a := 4096) (b := 4096) rw) (Spec.mat (a := 8192) (b := 4096) kv))

/-- The composition, reshaped to the result's shape, is the target function. -/
theorem composed_eq (xx x : (⟨S4x2048x4096, .f32⟩ : BufTy).Contents (Elt Ideal)) (μk μr : (⟨S1x1x4096, .f32⟩ : BufTy).Contents (Elt Ideal))
    (a4 : (⟨S14336x4096, .f32⟩ : BufTy).Contents (Elt Ideal)) (a5 : (⟨S4096x4096, .f32⟩ : BufTy).Contents (Elt Ideal))
    (a6 : (⟨S4096x14336, .f32⟩ : BufTy).Contents (Elt Ideal)) :
    shapeCast S4x2048x4096
        (gateOut (mixed xx x μr) (narrowed a5) (ffnOut (mixed xx x μk) (narrowed a4) (narrowed a6)))
        Facts₀.shapeCasts_S8192x4096_S4x2048x4096
      = Spec.result xx x μk μr a4 a5 a6 := by
  funext i
  obtain ⟨b, t, c, rfl⟩ : ∃ (b : Fin 4) (t : Fin 2048) (c : Fin 4096), i = ix3 b t c := ⟨i 0, i 1, i 2, eq_ix3 i⟩
  rw [unflat_apply, Spec.result_ix3]
  unfold gateOut ffnOut Spec.resultAt
  rw [Spec.arr_ix2]
  unfold Spec.gate
  rw [Spec.mat_arr]
  unfold Spec.ffn Spec.mat
  simp only [mixed_apply, narrowed_apply]

end Cert.KernelIdeal.Val

end
-- ==== Proof.KI.Out.lean ====
/-
  The two results of the idealized kernel program, as functions of the argument arrays.

  After the last host line every unscoped buffer holds the last boundary's contents. The first result is the gate
  kernel's output matrix reshaped to [4, 2048, 4096]; that matrix is the gate function of the receptance input, the
  receptance weights and the feed-forward kernel's output matrix, which in turn is the feed-forward function of the key
  input and the two other weight matrices; all five inputs are what the first host lines made of the arguments. So the
  first result is the target function. The second result is the last step of the sequence, cut out of the first argument.
-/
import proofs.«124112_j77154792505751_2_alg».proof.Proof.KI.Run
import proofs.«124112_j77154792505751_2_alg».proof.Proof.KI.Val0
import proofs.«124112_j77154792505751_2_alg».proof.Proof.KI.Val1
import proofs.«124112_j77154792505751_2_alg».proof.Proof.KI.Bridge

noncomputable section

namespace Cert.KernelIdeal.Val

open Cert.KernelIdeal Cert.KernelIdeal.Gen Cert.KernelIdeal.Fr Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg) (c : Dev nD)

/-- The shifted sequence of the launch memory. -/
abbrev xx : (⟨S4x2048x4096, .f32⟩ : BufTy).Contents (Elt Ideal) :=
  shifted (m (c, Proc.devRef .tc main_arg0)) (m (c, Proc.devRef .tc main_arg1))

/-! ## What the first kernel finds -/

theorem e_v13 : V1 m ρ c main_v13 = mixed (xx m c) (m (c, Proc.devRef .tc main_arg0)) (m (c, Proc.devRef .tc main_arg2)) := in_v13 m c
theorem e_v21 : V1 m ρ c main_v21 = mixed (xx m c) (m (c, Proc.devRef .tc main_arg0)) (m (c, Proc.devRef .tc main_arg3)) := in_v21 m c
theorem e_v22 : V1 m ρ c main_v22 = narrowed (s := S14336x4096) (m (c, Proc.devRef .tc main_arg4)) := in_v22 m c
theorem e_v23 : V1 m ρ c main_v23 = narrowed (s := S4096x14336) (m (c, Proc.devRef .tc main_arg6)) := in_v23 m c
theorem e_v24 : V1 m ρ c main_v24 = narrowed (s := S4096x4096) (m (c, Proc.devRef .tc main_arg5)) := in_v24 m c

/-! ## What the second kernel finds -/

/-- The feed-forward kernel's output matrix. -/
theorem e_v25 : V2 m ρ c main_v25
    = ffnOut (mixed (xx m c) (m (c, Proc.devRef .tc main_arg0)) (m (c, Proc.devRef .tc main_arg2)))
        (narrowed (s := S14336x4096) (m (c, Proc.devRef .tc main_arg4))) (narrowed (s := S4096x14336) (m (c, Proc.devRef .tc main_arg6))) := by
  refine (W2_arr m ρ c 3).trans ((final0 (V1 m ρ) c).trans ?_)
  rw [e_v13, e_v22, e_v23]
  rfl

theorem e2_v21 : V2 m ρ c main_v21 = mixed (xx m c) (m (c, Proc.devRef .tc main_arg0)) (m (c, Proc.devRef .tc main_arg3)) :=
  (W2_of_ne m ρ c main_v21 (by decide)).trans (e_v21 m ρ c)

theorem e2_v24 : V2 m ρ c main_v24 = narrowed (s := S4096x4096) (m (c, Proc.devRef .tc main_arg5)) :=
  (W2_of_ne m ρ c main_v24 (by decide)).trans (e_v24 m ρ c)

/-! ## What the second kernel leaves -/

theorem e_v26 : W3 m ρ c (Proc.devRef .tc main_v26)
    = gateOut (mixed (xx m c) (m (c, Proc.devRef .tc main_arg0)) (m (c, Proc.devRef .tc main_arg3)))
        (narrowed (s := S4096x4096) (m (c, Proc.devRef .tc main_arg5)))
        (ffnOut (mixed (xx m c) (m (c, Proc.devRef .tc main_arg0)) (m (c, Proc.devRef .tc main_arg2)))
          (narrowed (s := S14336x4096) (m (c, Proc.devRef .tc main_arg4))) (narrowed (s := S4096x14336) (m (c, Proc.devRef .tc main_arg6)))) := by
  refine (W3_arr m ρ c 3).trans ((final1 (V2 m ρ) c).trans ?_)
  rw [e2_v21, e2_v24, e_v25]
  rfl

/-! ## The results -/

/-- The two host lines after the kernels, read at their results, for any contents before them. -/
theorem tail_v27 (W : Valuation τ sig (Elt Ideal)) :
    StableHlo.after (hostOps2 (F := Ideal)) W (Proc.devRef .tc main_v27)
      = shapeCast S4x2048x4096 (W (Proc.devRef .tc main_v26) : (⟨S8192x4096, .f32⟩ : BufTy).Contents (Elt Ideal)) Facts₀.shapeCasts_S8192x4096_S4x2048x4096 := by
  after_results; rfl

theorem tail_v28 (W : Valuation τ sig (Elt Ideal)) :
    StableHlo.after (hostOps2 (F := Ideal)) W (Proc.devRef .tc main_v28)
      = extractStridedSlice S4x1x4096 ![0, 2047, 0] (W (Proc.devRef .tc main_arg0) : (⟨S4x2048x4096, .f32⟩ : BufTy).Contents (Elt Ideal)) Facts₀.slices_S4x2048x4096_S4x1x4096_0_2047_0 := by
  after_results

/-- The first result is the target function of the argument arrays. -/
theorem out_v27 : W4 m ρ c (Proc.devRef .tc main_v27)
    = Spec.result (xx m c) (m (c, Proc.devRef .tc main_arg0)) (m (c, Proc.devRef .tc main_arg2)) (m (c, Proc.devRef .tc main_arg3))
        (m (c, Proc.devRef .tc main_arg4)) (m (c, Proc.devRef .tc main_arg5)) (m (c, Proc.devRef .tc main_arg6)) := by
  refine (tail_v27 (W3 m ρ c)).trans ?_
  rw [e_v26]
  exact composed_eq _ _ _ _ _ _ _

/-- The second result is the last step of the first argument. -/
theorem out_v28 : W4 m ρ c (Proc.devRef .tc main_v28)
    = extractStridedSlice S4x1x4096 ![0, 2047, 0] (m (c, Proc.devRef .tc main_arg0) : (⟨S4x2048x4096, .f32⟩ : BufTy).Contents (Elt Ideal)) Facts₀.slices_S4x2048x4096_S4x1x4096_0_2047_0 := by
  refine (tail_v28 (W3 m ρ c)).trans ?_
  rw [show W3 m ρ c (Proc.devRef .tc main_arg0) = m (c, Proc.devRef .tc main_arg0) from
    (W3_of_ne m ρ c main_arg0 (by decide)).trans ((W2_of_ne m ρ c main_arg0 (by decide)).trans (in_arg0 m c))]

end Cert.KernelIdeal.Val

end
-- ==== Proof.RefVal.lean ====
/-
  The reference's result, read at an entry, is the target function of the argument arrays: each product with a
  transposed weight matrix is a sum over the shared last axis, relu is the maximum with 0, the square a product, and
  the sigmoid the reference spells as 1 / (1 + exp (-z)) is the logistic function.
-/
import proofs.«124112_j77154792505751_2_alg».proof.Proof.Gen.ReferenceIdeal.Read
import proofs.«124112_j77154792505751_2_alg».proof.Proof.Target

noncomputable section

namespace Cert.ReferenceIdeal.RefValue

open Cert.ReferenceIdeal Cert.ReferenceIdeal.Gen Cert.ReferenceIdeal.Read Idealize.ShloMosaic Idealize.ShloMosaic.ValueIdx

variable (a0 : (⟨S4x2048x4096, .f32⟩ : BufTy).Contents (Elt Ideal)) (a1 : (⟨S4x1x4096, .f32⟩ : BufTy).Contents (Elt Ideal))
  (a2 a3 : (⟨S1x1x4096, .f32⟩ : BufTy).Contents (Elt Ideal)) (a4 : (⟨S14336x4096, .f32⟩ : BufTy).Contents (Elt Ideal))
  (a5 : (⟨S4096x4096, .f32⟩ : BufTy).Contents (Elt Ideal)) (a6 : (⟨S4096x14336, .f32⟩ : BufTy).Contents (Elt Ideal))

/-- The interpolated key input at (b, t, k). -/
theorem xk_apply (b : Fin 4) (t : Fin 2048) (k : Fin 4096) :
    val_main_v8 (F := Ideal) a0 a1 a2 (ix3 b t k)
      = Spec.mix (val_main_v1 (F := Ideal) a0 a1 (ix3 b t k)) (a0 (ix3 b t k)) (a2 (ix3 (0 : Fin 1) (0 : Fin 1) k)) := by
  have e2 : idx_main_v2 (ix3 b t k) = ix3 (0 : Fin 1) (0 : Fin 1) k :=
    funext fun a => Fin.ext (by match a with | ⟨0, _⟩ => rfl | ⟨1, _⟩ => rfl | ⟨2, _⟩ => rfl)
  have e6 : idx_main_v6 (ix3 b t k) = ix3 (0 : Fin 1) (0 : Fin 1) k :=
    funext fun a => Fin.ext (by match a with | ⟨0, _⟩ => rfl | ⟨1, _⟩ => rfl | ⟨2, _⟩ => rfl)
  rw [val_main_v8_apply, val_main_v3_apply, val_main_v2_apply, val_main_v7_apply, val_main_v6_apply, val_main_v5_apply,
    val_main_v4_apply, val_main_cst_apply, e2, e6]
  rfl

/-- The interpolated receptance input at (b, t, k). -/
theorem xr_apply (b : Fin 4) (t : Fin 2048) (k : Fin 4096) :
    val_main_v15 (F := Ideal) a0 a1 a3 (ix3 b t k)
      = Spec.mix (val_main_v1 (F := Ideal) a0 a1 (ix3 b t k)) (a0 (ix3 b t k)) (a3 (ix3 (0 : Fin 1) (0 : Fin 1) k)) := by
  have e9 : idx_main_v9 (ix3 b t k) = ix3 (0 : Fin 1) (0 : Fin 1) k :=
    funext fun a => Fin.ext (by match a with | ⟨0, _⟩ => rfl | ⟨1, _⟩ => rfl | ⟨2, _⟩ => rfl)
  have e13 : idx_main_v13 (ix3 b t k) = ix3 (0 : Fin 1) (0 : Fin 1) k :=
    funext fun a => Fin.ext (by match a with | ⟨0, _⟩ => rfl | ⟨1, _⟩ => rfl | ⟨2, _⟩ => rfl)
  rw [val_main_v15_apply, val_main_v10_apply, val_main_v9_apply, val_main_v14_apply, val_main_v13_apply, val_main_v12_apply,
    val_main_v11_apply, val_main_cst_0_apply, e9, e13]
  rfl

/-- The feed-forward value at (b, t, c): the sum over all hidden units. -/
theorem kv_apply (b : Fin 4) (t : Fin 2048) (c : Fin 4096) :
    val_main_v19 (F := Ideal) a0 a1 a2 a4 a6 (ix3 b t c)
      = ∑ f : Fin 14336, Spec.rsq (∑ k : Fin 4096,
          Spec.mix (val_main_v1 (F := Ideal) a0 a1 (ix3 b t k)) (a0 (ix3 b t k)) (a2 (ix3 (0 : Fin 1) (0 : Fin 1) k)) * a4 (ix2 f k))
          * a6 (ix2 c f) := by
  have el19 : ∀ f : Fin 14336, lidx_main_v19 (ix3 b t c) f = ix3 b t f := fun f =>
    funext fun a => Fin.ext (by match a with | ⟨0, _⟩ => rfl | ⟨1, _⟩ => rfl | ⟨2, _⟩ => rfl)
  have er19 : ∀ f : Fin 14336, ridx_main_v19 (ix3 b t c) f = ix2 c f := fun f =>
    funext fun a => Fin.ext (by match a with | ⟨0, _⟩ => rfl | ⟨1, _⟩ => rfl)
  have el16 : ∀ (f : Fin 14336) (k : Fin 4096), lidx_main_v16 (ix3 b t f) k = ix3 b t k := fun f k =>
    funext fun a => Fin.ext (by match a with | ⟨0, _⟩ => rfl | ⟨1, _⟩ => rfl | ⟨2, _⟩ => rfl)
  have er16 : ∀ (f : Fin 14336) (k : Fin 4096), ridx_main_v16 (ix3 b t f) k = ix2 f k := fun f k =>
    funext fun a => Fin.ext (by match a with | ⟨0, _⟩ => rfl | ⟨1, _⟩ => rfl)
  rw [val_main_v19_apply]
  refine Finset.sum_congr rfl fun f _ => ?_
  rw [el19, er19, val_main_v18_apply, val_main_v17_apply, val_main_v16_apply, val_main_call0_v0_apply, val_main_call0_cst_apply]
  have hs : (∑ k : Fin 4096, val_main_v8 (F := Ideal) a0 a1 a2 (lidx_main_v16 (ix3 b t f) k) * a4 (ridx_main_v16 (ix3 b t f) k))
      = ∑ k : Fin 4096, Spec.mix (val_main_v1 (F := Ideal) a0 a1 (ix3 b t k)) (a0 (ix3 b t k)) (a2 (ix3 (0 : Fin 1) (0 : Fin 1) k)) * a4 (ix2 f k) :=
    Finset.sum_congr rfl fun k _ => by rw [el16, er16, xk_apply]
  rw [hs]
  unfold Spec.rsq
  rw [show FloatOps.ofBits (F := Ideal) .f32 0x00000000#32 = (0 : EReal) from Ideal.ofBits_zero_f32]
  rfl

/-- The gate's logit at (b, t, c). -/
theorem logit_apply (b : Fin 4) (t : Fin 2048) (c : Fin 4096) :
    val_main_v20 (F := Ideal) a0 a1 a3 a5 (ix3 b t c)
      = ∑ k : Fin 4096, Spec.mix (val_main_v1 (F := Ideal) a0 a1 (ix3 b t k)) (a0 (ix3 b t k)) (a3 (ix3 (0 : Fin 1) (0 : Fin 1) k)) * a5 (ix2 c k) := by
  have el : ∀ k : Fin 4096, lidx_main_v20 (ix3 b t c) k = ix3 b t k := fun k =>
    funext fun a => Fin.ext (by match a with | ⟨0, _⟩ => rfl | ⟨1, _⟩ => rfl | ⟨2, _⟩ => rfl)
  have er : ∀ k : Fin 4096, ridx_main_v20 (ix3 b t c) k = ix2 c k := fun k =>
    funext fun a => Fin.ext (by match a with | ⟨0, _⟩ => rfl | ⟨1, _⟩ => rfl)
  rw [val_main_v20_apply]
  exact Finset.sum_congr rfl fun k _ => by rw [el, er, xr_apply]

/-- The reference's result array is the target function of its arguments. -/
theorem result_eq :
    val_main_v27 (F := Ideal) a0 a1 a2 a3 a4 a5 a6 = Spec.result (val_main_v1 (F := Ideal) a0 a1) a0 a2 a3 a4 a5 a6 := by
  funext i
  obtain ⟨b, t, c, rfl⟩ : ∃ (b : Fin 4) (t : Fin 2048) (c : Fin 4096), i = ix3 b t c := ⟨i 0, i 1, i 2, eq_ix3 i⟩
  rw [Spec.result_ix3, val_main_v27_apply, val_main_v26_apply, val_main_v25_apply, val_main_cst_2_apply, val_main_v24_apply,
    val_main_v23_apply, val_main_cst_1_apply, val_main_v22_apply, val_main_v21_apply, logit_apply, kv_apply]
  unfold Spec.resultAt
  rw [show FloatOps.ofBits (F := Ideal) .f32 0x3F800000#32 = (1 : EReal) from Spec.one_eq]
  rfl

end Cert.ReferenceIdeal.RefValue

end
-- ==== Proof.lean ====
/-
  The certificate of a channel-mix block: a token-shift interpolation, a squared-ReLU feed-forward product and a
  sigmoid receptance gate,
    out (b, t, c) = logistic (∑ k, xr (b, t, k) · Wr (c, k)) · ∑ f, (max (∑ k, xk (b, t, k) · Wk (f, k)) 0)² · Wv (c, f),
  with xk, xr the per-channel interpolations of the sequence with the sequence shifted by one step, and a second result,
  the last step of the sequence.

  The kernel program computes the interpolations on the host as [8192, 4096] matrices (row 2048 · b + t), the
  feed-forward product in a first kernel that walks the 14336 hidden units in 28 blocks of 512 and accumulates the
  blocks' partial sums in a scratch matrix carried from grid point to grid point (set to zero at a row block's first
  point, copied to the output block at its last), and the gate in a second kernel tile by tile. The reference computes
  the same formulas on [4, 2048, 4096] arrays with whole matrix products. Over the extended reals the sum over the
  hidden units is the sum of the 28 block sums (addition is commutative and associative; no finiteness is needed), a
  change of float format is the identity, and the reference's 1 / (1 + exp (-z)) is the logistic function: the two
  results are one function of the arguments (`Spec.result`).

  The frames of the two kernel programs — every execution terminates, nothing faults, the arguments end unchanged —
  are proved region by region: the first kernel by its three control cases with the carried scratch's contents named
  after every grid point, the second as one case, and the run over the host lines and the two regions in order.
  The ideal pass rewrote nothing, so `preserves` holds trivially.
-/
import proofs.«124112_j77154792505751_2_alg».proof.Defs
import proofs.«124112_j77154792505751_2_alg».proof.Proof.Gen.Kernel
import proofs.«124112_j77154792505751_2_alg».proof.Proof.Gen.KernelIdeal
import proofs.«124112_j77154792505751_2_alg».proof.Proof.Gen.ReferenceIdeal
import proofs.«124112_j77154792505751_2_alg».proof.Proof.Gen.ReferenceIdeal.Run
import proofs.«124112_j77154792505751_2_alg».proof.Proof.Gen.ReferenceIdeal.Read
import proofs.«124112_j77154792505751_2_alg».proof.Proof.Gen.Pre_finite_inputs
import proofs.«124112_j77154792505751_2_alg».proof.Proof.KB.Run
import proofs.«124112_j77154792505751_2_alg».proof.Proof.KI.Out
import proofs.«124112_j77154792505751_2_alg».proof.Proof.RefVal

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

open Cert.KernelIdeal Cert.KernelIdeal.Fr Cert.KernelIdeal.Val in
/-- From memories that agree on the arguments both idealized programs end with the target function of the arguments
    as first result and the last step of the sequence as second. -/
theorem algebraic : Cert.algebraic_KernelIdeal_ReferenceIdeal := by
  intro m ρ m' ρ' _ hagree
  refine ⟨fun c => Spec.result (xx m c) (m (c, Proc.devRef .tc main_arg0)) (m (c, Proc.devRef .tc main_arg2)) (m (c, Proc.devRef .tc main_arg3))
      (m (c, Proc.devRef .tc main_arg4)) (m (c, Proc.devRef .tc main_arg5)) (m (c, Proc.devRef .tc main_arg6)),
    fun c => extractStridedSlice S4x1x4096 ![0, 2047, 0] (m (c, Proc.devRef .tc main_arg0) : (⟨S4x2048x4096, .f32⟩ : BufTy).Contents (Elt Ideal))
      Facts₀.slices_S4x2048x4096_S4x1x4096_0_2047_0, ?_, ?_⟩
  · exact (θ_run _ _ _).mono (fun r h c =>
      ⟨(h c _ (mem_uc main_v27 (by decide))).trans (out_v27 m ρ c),
       (h c _ (mem_uc main_v28 (by decide))).trans (out_v28 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v27_eq, Cert.ReferenceIdeal.RefValue.result_eq,
        (hagree c).1, (hagree c).2.1, (hagree c).2.2.1, (hagree c).2.2.2.1, (hagree c).2.2.2.2.1, (hagree c).2.2.2.2.2.1,
        (hagree c).2.2.2.2.2.2]
      rfl
    · rw [(h c).2.1, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
